-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128 : Shape := ⟨3, ![8, 128, 128]⟩
abbrev S8x128x64 : Shape := ⟨3, ![8, 128, 64]⟩
abbrev S_ : Shape := ⟨0, ![]⟩

class Facts : Prop where
  bcast_S_S8x128x128 : S_.BroadcastsInDim S8x128x128 (![] : Fin 0 → Fin S8x128x128.rank)
  reducesTo_S8x128x128_S_d0_1_2 : S8x128x128.ReducesTo [0, 1, 2] S_
  h_S_ : 0 < S_.numel
  bcast_S_S8x128x64 : S_.BroadcastsInDim S8x128x64 (![] : Fin 0 → Fin S8x128x64.rank)
  reducesTo_S8x128x64_S_d0_1_2 : S8x128x64.ReducesTo [0, 1, 2] S_

variable [Facts]

def fn {F : FTy → Type} [FloatOps F] (main_arg0 : FVec F S8x128x128 .f32) (main_arg1 : FVec F S8x128x64 .f32) : IVec S_ 1 :=
  let main_v0 : FVec F S8x128x128 .f32 := Host.absf main_arg0
  let main_cst : FVec F S_ .f32 := constant S_ .f32 0x7F800000#32
  let main_v1 : FVec F S8x128x128 .f32 := broadcastInDim S8x128x128 ![] bcast_S_S8x128x128 main_cst
  let main_v2 : IVec S8x128x128 1 := cmpf .olt main_v0 main_v1
  let main_c : IVec S_ 1 := constantI S_ 1 1#1
  let main_v3 : IVec S_ 1 := (fun x v => Host.reduce IntOp.andi x v reducesTo_S8x128x128_S_d0_1_2 h_S_) main_v2 main_c
  let main_v4 : FVec F S8x128x64 .f32 := Host.absf main_arg1
  let main_cst_0 : FVec F S_ .f32 := constant S_ .f32 0x7F800000#32
  let main_v5 : FVec F S8x128x64 .f32 := broadcastInDim S8x128x64 ![] bcast_S_S8x128x64 main_cst_0
  let main_v6 : IVec S8x128x64 1 := cmpf .olt main_v4 main_v5
  let main_c_1 : IVec S_ 1 := constantI S_ 1 1#1
  let main_v7 : IVec S_ 1 := (fun x v => Host.reduce IntOp.andi x v reducesTo_S8x128x64_S_d0_1_2 h_S_) main_v6 main_c_1
  let main_v8 : IVec S_ 1 := andi main_v3 main_v7
  main_v8
-- ==== Kernel.lean ====
abbrev S8x128x128 : Shape := ⟨3, ![8, 128, 128]⟩
abbrev S8x128x64 : Shape := ⟨3, ![8, 128, 64]⟩
abbrev S128x512 : Shape := ⟨2, ![128, 512]⟩
abbrev S8x64x128 : Shape := ⟨3, ![8, 64, 128]⟩
abbrev S64x512 : Shape := ⟨2, ![64, 512]⟩
abbrev S1x128x64 : Shape := ⟨3, ![1, 128, 64]⟩
abbrev S128x64 : Shape := ⟨2, ![128, 64]⟩
abbrev S1024x512 : Shape := ⟨2, ![1024, 512]⟩
abbrev S1x64x128 : Shape := ⟨3, ![1, 64, 128]⟩
abbrev S64x128 : Shape := ⟨2, ![64, 128]⟩
abbrev S64x1024 : Shape := ⟨2, ![64, 1024]⟩
abbrev S128x8x64 : Shape := ⟨3, ![128, 8, 64]⟩

abbrev nBuf : Space → Nat
  | .hbm => 5
  | .vmem => 5
  | .smem => 0
  | _ => 0

abbrev bufTy : (tb : Table) → Fin (tcTables nBuf tb) → BufTy
  | .hbm, ⟨0, _⟩ => ⟨S8x128x128, .f32⟩
  | .hbm, ⟨1, _⟩ => ⟨S8x128x64, .f32⟩
  | .hbm, ⟨2, _⟩ => ⟨S128x512, .f32⟩
  | .hbm, ⟨3, _⟩ => ⟨S128x8x64, .f32⟩
  | .hbm, ⟨4, _⟩ => ⟨S8x128x64, .f32⟩
  | .local _ .vmem, ⟨0, _⟩ => ⟨S8x64x128, .f32⟩
  | .local _ .vmem, ⟨1, _⟩ => ⟨S8x64x128, .f32⟩
  | .local _ .vmem, ⟨2, _⟩ => ⟨S8x128x64, .f32⟩
  | .local _ .vmem, ⟨3, _⟩ => ⟨S64x512, .f32⟩
  | .local _ .vmem, ⟨4, _⟩ => ⟨S64x512, .f32⟩
  | _, _ => ⟨S8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x128x64_S1x128x64_0_0_0 : ∀ a, (![0, 0, 0] : Fin 3 → Nat) a + S1x128x64.size a ≤ S8x128x64.size a
  h_S1x128x64 : 0 < S1x128x64.numel
  shapeCasts_S1x128x64_S128x64 : S1x128x64.ShapeCasts S128x64
  bitsLt_bf16_f32 : FTy.bits .bf16 < FTy.bits .f32
  inb_S8x128x64_S1x128x64_1_0_0 : ∀ a, (![1, 0, 0] : Fin 3 → Nat) a + S1x128x64.size a ≤ S8x128x64.size a
  inb_S8x128x64_S1x128x64_2_0_0 : ∀ a, (![2, 0, 0] : Fin 3 → Nat) a + S1x128x64.size a ≤ S8x128x64.size a
  inb_S8x128x64_S1x128x64_3_0_0 : ∀ a, (![3, 0, 0] : Fin 3 → Nat) a + S1x128x64.size a ≤ S8x128x64.size a
  inb_S8x128x64_S1x128x64_4_0_0 : ∀ a, (![4, 0, 0] : Fin 3 → Nat) a + S1x128x64.size a ≤ S8x128x64.size a
  inb_S8x128x64_S1x128x64_5_0_0 : ∀ a, (![5, 0, 0] : Fin 3 → Nat) a + S1x128x64.size a ≤ S8x128x64.size a
  inb_S8x128x64_S1x128x64_6_0_0 : ∀ a, (![6, 0, 0] : Fin 3 → Nat) a + S1x128x64.size a ≤ S8x128x64.size a
  inb_S8x128x64_S1x128x64_7_0_0 : ∀ a, (![7, 0, 0] : Fin 3 → Nat) a + S1x128x64.size a ≤ S8x128x64.size a
  concatenates_S128x64_S128x64_S128x64_S128x64_S128x64_S128x64_S128x64_S128x64_S128x512_d1 : Shape.Concatenates [S128x64, S128x64, S128x64, S128x64, S128x64, S128x64, S128x64, S128x64] S128x512 1
  concatenates_S128x512_S128x512_S128x512_S128x512_S128x512_S128x512_S128x512_S128x512_S1024x512_d0 : Shape.Concatenates [S128x512, S128x512, S128x512, S128x512, S128x512, S128x512, S128x512, S128x512] S1024x512 0
  inb_S8x64x128_S1x64x128_0_0_0 : ∀ a, (![0, 0, 0] : Fin 3 → Nat) a + S1x64x128.size a ≤ S8x64x128.size a
  h_S1x64x128 : 0 < S1x64x128.numel
  shapeCasts_S1x64x128_S64x128 : S1x64x128.ShapeCasts S64x128
  inb_S8x64x128_S1x64x128_1_0_0 : ∀ a, (![1, 0, 0] : Fin 3 → Nat) a + S1x64x128.size a ≤ S8x64x128.size a
  inb_S8x64x128_S1x64x128_2_0_0 : ∀ a, (![2, 0, 0] : Fin 3 → Nat) a + S1x64x128.size a ≤ S8x64x128.size a
  inb_S8x64x128_S1x64x128_3_0_0 : ∀ a, (![3, 0, 0] : Fin 3 → Nat) a + S1x64x128.size a ≤ S8x64x128.size a
  inb_S8x64x128_S1x64x128_4_0_0 : ∀ a, (![4, 0, 0] : Fin 3 → Nat) a + S1x64x128.size a ≤ S8x64x128.size a
  inb_S8x64x128_S1x64x128_5_0_0 : ∀ a, (![5, 0, 0] : Fin 3 → Nat) a + S1x64x128.size a ≤ S8x64x128.size a
  inb_S8x64x128_S1x64x128_6_0_0 : ∀ a, (![6, 0, 0] : Fin 3 → Nat) a + S1x64x128.size a ≤ S8x64x128.size a
  inb_S8x64x128_S1x64x128_7_0_0 : ∀ a, (![7, 0, 0] : Fin 3 → Nat) a + S1x64x128.size a ≤ S8x64x128.size a
  concatenates_S64x128_S64x128_S64x128_S64x128_S64x128_S64x128_S64x128_S64x128_S64x1024_d1 : Shape.Concatenates [S64x128, S64x128, S64x128, S64x128, S64x128, S64x128, S64x128, S64x128] S64x1024 1
  inb_S64x512_S64x512_0_0 : ∀ a, (![0, 0] : Fin 2 → Nat) a + S64x512.size a ≤ S64x512.size a
  h_S64x512 : 0 < S64x512.numel
  shapeCasts_S128x512_S128x8x64 : S128x512.ShapeCasts S128x8x64
  transposes_S128x8x64_S8x128x64_1_0_2 : S128x8x64.Transposes [1, 0, 2] S8x128x64
  dot_S64x1024_S1024x512_S64x512_1_0_0_1_n_n_wf : DotDims.WF S64x1024 S1024x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x128.size a ≤ S8x128x128.size a
  hwx0_0 : ∀ i : grid0.Coords, EltTy.bits .f32 = 32 ∨ (Rect.block (s := S8x128x128) S8x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x64.size a ≤ S8x128x64.size a
  hwx0_1 : ∀ i : grid0.Coords, EltTy.bits .f32 = 32 ∨ (Rect.block (s := S8x128x64) S8x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S128x512.size a
  hwx0_2 : ∀ i : grid0.Coords, EltTy.bits .f32 = 32 ∨ (Rect.block (s := S128x512) S64x512.size (cc0_transform_2 i) (hinb0_2 i)).WholeWords (EltTy.packing .f32)

variable [Facts₀]

def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf

abbrev win0_0 : Pipeline.Window sig grid0 :=
  Pipeline.Window.ofSpec (Memref.whole main_arg0) S8x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x128 : Shape := ⟨3, ![8, 128, 128]⟩
abbrev S8x128x64 : Shape := ⟨3, ![8, 128, 64]⟩
abbrev S64 : Shape := ⟨1, ![64]⟩
abbrev S64x1x1x1 : Shape := ⟨4, ![64, 1, 1, 1]⟩
abbrev S_ : Shape := ⟨0, ![]⟩
abbrev S64x1 : Shape := ⟨2, ![64, 1]⟩
abbrev S64x128x128 : Shape := ⟨3, ![64, 128, 128]⟩
abbrev S64x128x128x1 : Shape := ⟨4, ![64, 128, 128, 1]⟩
abbrev S64x128x64 : Shape := ⟨3, ![64, 128, 64]⟩
abbrev S64x1x128x64 : Shape := ⟨4, ![64, 1, 128, 64]⟩
abbrev S64x128x128x64 : Shape := ⟨4, ![64, 128, 128, 64]⟩
abbrev S8x128x128x64 : Shape := ⟨4, ![8, 128, 128, 64]⟩

abbrev nBuf : Space → Nat
  | .hbm => 34
  | .vmem => 0
  | .smem => 0
  | _ => 0

abbrev bufTy : (tb : Table) → Fin (tcTables nBuf tb) → BufTy
  | .hbm, ⟨0, _⟩ => ⟨S8x128x128, .f32⟩
  | .hbm, ⟨1, _⟩ => ⟨S8x128x64, .f32⟩
  | .hbm, ⟨2, _⟩ => ⟨S64, .f32⟩
  | .hbm, ⟨3, _⟩ => ⟨S64, .i32⟩
  | .hbm, ⟨4, _⟩ => ⟨S64, .i1⟩
  | .hbm, ⟨5, _⟩ => ⟨S64, .i32⟩
  | .hbm, ⟨6, _⟩ => ⟨S64, .i1⟩
  | .hbm, ⟨7, _⟩ => ⟨S64, .i32⟩
  | .hbm, ⟨8, _⟩ => ⟨S64x1x1x1, .f32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S64x128x128, .f32⟩
  | .hbm, ⟨15, _⟩ => ⟨S64x128x128x1, .f32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x128x64, .f32⟩
  | .hbm, ⟨22, _⟩ => ⟨S64x1x128x64, .f32⟩
  | .hbm, ⟨23, _⟩ => ⟨S64x128x128x1, .f32⟩
  | .hbm, ⟨24, _⟩ => ⟨S64x128x128x1, .f32⟩
  | .hbm, ⟨25, _⟩ => ⟨S64x128x128x64, .f32⟩
  | .hbm, ⟨26, _⟩ => ⟨S64x128x128x64, .f32⟩
  | .hbm, ⟨27, _⟩ => ⟨S64x128x128x64, .f32⟩
  | .hbm, ⟨28, _⟩ => ⟨S_, .f32⟩
  | .hbm, ⟨29, _⟩ => ⟨S8x128x128x64, .f32⟩
  | .hbm, ⟨30, _⟩ => ⟨S64x1, .i32⟩
  | .hbm, ⟨31, _⟩ => ⟨S8x128x128x64, .f32⟩
  | .hbm, ⟨32, _⟩ => ⟨S_, .f32⟩
  | .hbm, ⟨33, _⟩ => ⟨S8x128x64, .f32⟩
  | _, _ => ⟨S8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v0 : Ref sig .tc := ⟨.hbm, 8, rfl⟩
abbrev main_c_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S64_S64x1x1x1_0 : S64.BroadcastsInDim S64x1x1x1 (![0] : Fin 1 → Fin S64x1x1x1.rank)
  bcast_S_S64 : S_.BroadcastsInDim S64 (![] : Fin 0 → Fin S64.rank)
  bcast_S64_S64x1_0 : S64.BroadcastsInDim S64x1 (![0] : Fin 1 → Fin S64x1.rank)
  bcast_S64x128x128_S64x128x128x1_0_1_2 : S64x128x128.BroadcastsInDim S64x128x128x1 (![0, 1, 2] : Fin 3 → Fin S64x128x128x1.rank)
  bcast_S64x128x64_S64x1x128x64_0_2_3 : S64x128x64.BroadcastsInDim S64x1x128x64 (![0, 2, 3] : Fin 3 → Fin S64x1x128x64.rank)
  bcast_S64x1x1x1_S64x128x128x1_0_1_2_3 : S64x1x1x1.BroadcastsInDim S64x128x128x1 (![0, 1, 2, 3] : Fin 4 → Fin S64x128x128x1.rank)
  bcast_S64x128x128x1_S64x128x128x64_0_1_2_3 : S64x128x128x1.BroadcastsInDim S64x128x128x64 (![0, 1, 2, 3] : Fin 4 → Fin S64x128x128x64.rank)
  bcast_S64x1x128x64_S64x128x128x64_0_1_2_3 : S64x1x128x64.BroadcastsInDim S64x128x128x64 (![0, 1, 2, 3] : Fin 4 → Fin S64x128x128x64.rank)
  bcast_S_S8x128x128x64 : S_.BroadcastsInDim S8x128x128x64 (![] : Fin 0 → Fin S8x128x128x64.rank)
  reducesTo_S8x128x128x64_S8x128x64_d2 : S8x128x128x64.ReducesTo [2] S8x128x64
  h_S_ : 0 < S_.numel
  gather_S8x128x128_S64x1_S64x128x128_12_0_n_n_0_1_1128128_wf : GatherDims.WF S8x128x128 S64x1 S64x128x128 [1, 2] [0] [] [0] [] 1 ![1, 128, 128]
  gather_S8x128x64_S64x1_S64x128x64_12_0_n_n_0_1_112864_wf : GatherDims.WF S8x128x64 S64x1 S64x128x64 [1, 2] [0] [] [0] [] 1 ![1, 128, 64]
  scatter_S8x128x128x64_S64x1_S64x128x128x64_123_0_0_1_wf : ScatterDims.WF S8x128x128x64 S64x1 S64x128x128x64 [1, 2, 3] [0] [0] 1

variable [Facts₀]

def gather_S8x128x128_S64x1_S64x128x128_12_0_n_n_0_1_1128128 : GatherDims S8x128x128 S64x1 S64x128x128 where
  offsetDims := [1, 2]
  collapsedSliceDims := [0]
  operandBatchingDims := []
  startIndicesBatchingDims := []
  startIndexMap := [0]
  indexVectorDim := 1
  sliceSizes := ![1, 128, 128]
  wf := gather_S8x128x128_S64x1_S64x128x128_12_0_n_n_0_1_1128128_wf
def gather_S8x128x64_S64x1_S64x128x64_12_0_n_n_0_1_112864 : GatherDims S8x128x64 S64x1 S64x128x64 where
  offsetDims := [1, 2]
  collapsedSliceDims := [0]
  operandBatchingDims := []
  startIndicesBatchingDims := []
  startIndexMap := [0]
  indexVectorDim := 1
  sliceSizes := ![1, 128, 64]
  wf := gather_S8x128x64_S64x1_S64x128x64_12_0_n_n_0_1_112864_wf
def scatter_S8x128x128x64_S64x1_S64x128x128x64_123_0_0_1 : ScatterDims S8x128x128x64 S64x1 S64x128x128x64 where
  updateWindowDims := [1, 2, 3]
  insertedWindowDims := [0]
  scatterDimsToOperandDims := [0]
  indexVectorDim := 1
  wf := scatter_S8x128x128x64_S64x1_S64x128x128x64_123_0_0_1_wf

class Facts : Prop extends Facts₀ where

variable [Facts]
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibCatEight.lean ====
/-
  A concatenation of EIGHT pieces of one shape, read at an index.

  Laying eight arrays of one shape end to end along an axis on which each has extent K gives an array whose entry at an
  index j is an entry of piece (j_axis / K): the one with the same coordinates off the axis and j_axis mod K on it.
-/
import Idealize.ShloMosaic.Lib.Pipeline.Value

noncomputable section

namespace Idealize.ShloMosaic.CatEight

open Idealize.ShloMosaic

variable {α : Type}

/-- Eight pieces `q0 … q7` of shape `s₁` along axis `a` of `t`: at `j`, piece `n = j_a / K` at the index `i` that agrees with
    `j` off the axis and has `j_a mod K` on it. -/
theorem concatenate_eight_apply {t s₁ : Shape} (a : Fin t.rank) (q0 q1 q2 q3 q4 q5 q6 q7 : s₁.Idx → α)
    (h : Shape.Concatenates (([⟨s₁, q0⟩, ⟨s₁, q1⟩, ⟨s₁, q2⟩, ⟨s₁, q3⟩, ⟨s₁, q4⟩, ⟨s₁, q5⟩, ⟨s₁, q6⟩, ⟨s₁, q7⟩] :
      List ((s : Shape) × (s.Idx → α))).map (·.1)) t a)
    (hr : s₁.rank = t.rank) (K : Nat) (hK : s₁.size (a.cast hr.symm) = K) (j : t.Idx) (n : Fin 8) (hn : (j a).val / K = n.val)
    (i : s₁.Idx) (hia : (i (a.cast hr.symm)).val = (j a).val % K)
    (hi : ∀ b : Fin s₁.rank, b.cast hr ≠ a → (i b).val = (j (b.cast hr)).val) :
    concatenate t a [⟨s₁, q0⟩, ⟨s₁, q1⟩, ⟨s₁, q2⟩, ⟨s₁, q3⟩, ⟨s₁, q4⟩, ⟨s₁, q5⟩, ⟨s₁, q6⟩, ⟨s₁, q7⟩] h j
      = (![q0, q1, q2, q3, q4, q5, q6, q7] : Fin 8 → s₁.Idx → α) n i :=
  concatenate_ofFn_apply a (![q0, q1, q2, q3, q4, q5, q6, q7] : Fin 8 → s₁.Idx → α) h hr K hK j n hn i hia hi

end Idealize.ShloMosaic.CatEight

end
-- ==== Proof.Blades.lean ====
/-
  The geometric product of multivectors in three dimensions, positive signature, as tables, and the law that
  joins two ways of summing it.

  The algebra has eight basis blades. For blades e_a and e_b the product e_a e_b is ± one blade e_o: the 64
  ordered pairs p = 8 a + b carry an output blade `seg p` and a sign. A multivector-valued dense layer contracts
  x[a, batch, f] against w[b, f, unit] over the feature f and over all pairs landing on the output blade o:

      out[o, batch, unit] = Σ_f Σ_{p : seg p = o} (sign p · x[a_p, batch, f]) · w[b_p, f, unit].

  For a fixed left blade a the map b ↦ seg (8 a + b) is a bijection of the eight blades (multiplication by a blade
  is invertible), so for every (a, o) there is exactly one partner b = `partner a o`, and the same number is a sum over
  the left blade alone:

      out[o, batch, unit] = Σ_a Σ_f x[a, batch, f] · (± w[partner a o, f, unit]),

  the minus sign written as a difference from zero. `blockSum_eq` is that identity on the extended reals; it uses
  only that 1 and −1 act on a product as they should and that finite sums may be regrouped — no finiteness.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Blades

open Idealize.ShloMosaic Idealize.ShloMosaic.ValueIdx

/-- The output blade of pair `p = 8 a + b`: e_a e_b = ± e_(seg p). -/
def seg : Fin 64 → Fin 8 := ![0, 1, 2, 3, 4, 5, 6, 7, 1, 0, 4, 5, 2, 3, 7, 6, 2, 4, 0, 6, 1, 7, 3, 5, 3, 5, 6, 0, 7, 1, 2, 4, 4, 2, 1, 7, 0, 6, 5, 3, 5, 3, 7, 1, 6, 0, 4, 2, 6, 7, 3, 2, 5, 4, 0, 1, 7, 6, 5, 4, 3, 2, 1, 0]

/-- Whether e_a e_b carries a minus sign. -/
def isNeg : Fin 64 → Bool := ![false, false, false, false, false, false, false, false, false, false, false, false, false, false, false, false, false, true, false, false, true, true, false, true, false, true, true, false, false, true, true, false, false, true, false, false, true, true, false, true, false, true, true, false, false, true, true, false, false, false, true, false, true, false, true, true, false, false, true, false, true, false, true, true]

/-- The left and right blade of a pair. -/
def left (p : Fin 64) : Fin 8 := ⟨p.val / 8, by omega⟩
def right (p : Fin 64) : Fin 8 := ⟨p.val % 8, by omega⟩

/-- The pair of a left and a right blade. -/
def pair (a b : Fin 8) : Fin 64 := ⟨8 * a.val + b.val, by omega⟩

/-- For a left blade `a` and an output blade `o`, the one right blade `b` with e_a e_b = ± e_o. -/
def partner (a o : Fin 8) : Fin 8 := (![![0, 1, 2, 3, 4, 5, 6, 7], ![1, 0, 4, 5, 2, 3, 7, 6], ![2, 4, 0, 6, 1, 7, 3, 5], ![3, 5, 6, 0, 7, 1, 2, 4], ![4, 2, 1, 7, 0, 6, 5, 3], ![5, 3, 7, 1, 6, 0, 4, 2], ![6, 7, 3, 2, 5, 4, 0, 1], ![7, 6, 5, 4, 3, 2, 1, 0]] : Fin 8 → Fin 8 → Fin 8) a o

/-- Its sign. -/
def partnerNeg (a o : Fin 8) : Bool := (![![false, false, false, false, false, false, false, false], ![false, false, false, false, false, false, false, false], ![false, true, false, false, true, true, false, true], ![false, true, true, false, false, true, true, false], ![true, false, true, true, false, false, true, false], ![true, false, false, true, true, false, false, true], ![true, true, false, true, false, true, false, false], ![true, true, false, true, false, true, false, false]] : Fin 8 → Fin 8 → Bool) a o

theorem left_pair (a b : Fin 8) : left (pair a b) = a := Fin.ext (by simp only [left, pair]; omega)
theorem right_pair (a b : Fin 8) : right (pair a b) = b := Fin.ext (by simp only [right, pair]; omega)

/-- Right multiplication partners: e_a e_b lands on e_o exactly for b the partner. -/
theorem seg_pair_iff : ∀ a o b : Fin 8, seg (pair a b) = o ↔ b = partner a o := by decide

theorem isNeg_pair_partner : ∀ a o : Fin 8, isNeg (pair a (partner a o)) = partnerNeg a o := by decide

/-- The sign of a pair as a number. -/
def sgn (p : Fin 64) : EReal := if isNeg p then -1 else 1

/-- The arrays' types, spelt with literal shapes. -/
abbrev XArr := (⟨3, ![8, 128, 128]⟩ : Shape).Idx → EReal
abbrev WArr := (⟨3, ![8, 128, 64]⟩ : Shape).Idx → EReal

/-- The layer's output at (blade o, batch row r, unit u): the signed products of every pair landing on `o`, summed over
    the pairs and over the feature. -/
def outAt (x : XArr) (w : WArr) (o : Fin 8) (r : Fin 128) (u : Fin 64) : EReal :=
  ∑ f : Fin 128, ∑ p : Fin 64, if seg p = o then (sgn p * x (ix3 (left p) r f)) * w (ix3 (right p) f u) else 0

/-- The output array. -/
def out (x : XArr) (w : WArr) : WArr := fun j => outAt x w (j 0) (j 1) (j 2)

theorem out_apply (x : XArr) (w : WArr) (o : Fin 8) (r : Fin 128) (u : Fin 64) : out x w (ix3 o r u) = outAt x w o r u := rfl

/-- Entry (f, u) of the signed weight block that left blade `a` contributes to output blade `o`: the partner's plane, or
    zero minus it. -/
def block (w : WArr) (a o : Fin 8) (f : Fin 128) (u : Fin 64) : EReal :=
  if partnerNeg a o then 0 - w (ix3 (partner a o) f u) else w (ix3 (partner a o) f u)

/-- A sum over the 64 pairs is the sum over the left blade of the sums over the right blade. -/
theorem sum_pairs (g : Fin 64 → EReal) : ∑ p : Fin 64, g p = ∑ a : Fin 8, ∑ b : Fin 8, g (pair a b) := by
  rw [← Fintype.sum_prod_type' (fun a b => g (pair a b))]
  refine (Fintype.sum_equiv (finProdFinEquiv (m := 8) (n := 8)) _ _ (fun ab => ?_)).symm
  congr 1
  exact Fin.ext (by simp only [finProdFinEquiv_apply_val, pair]; omega)

/-- One signed product, in the two spellings. -/
theorem signed_mul (X Wv : EReal) (n : Bool) :
    ((if n then (-1 : EReal) else 1) * X) * Wv = X * (if n then 0 - Wv else Wv) := by
  cases n
  · simp only [Bool.false_eq_true, if_false, one_mul]
  · simp only [if_true, neg_mul, one_mul, zero_sub, mul_neg]

/-- THE LAW: the sum over left blades and features of x against the signed partner blocks is the layer's output. -/
theorem blockSum_eq (x : XArr) (w : WArr) (o : Fin 8) (r : Fin 128) (u : Fin 64) :
    ∑ a : Fin 8, ∑ f : Fin 128, x (ix3 a r f) * block w a o f u = outAt x w o r u := by
  unfold outAt
  rw [Finset.sum_comm]
  refine Finset.sum_congr rfl fun f _ => ?_
  rw [sum_pairs]
  refine Finset.sum_congr rfl fun a _ => ?_
  rw [Finset.sum_eq_single (partner a o)]
  · rw [if_pos ((seg_pair_iff a o _).2 rfl), left_pair, right_pair]
    unfold sgn block
    rw [isNeg_pair_partner]
    exact (signed_mul _ _ _).symm
  · intro b _ hb
    exact if_neg fun h => hb ((seg_pair_iff a o b).1 h)
  · intro h; exact absurd (Finset.mem_univ _) h

end Cert.Blades

end
-- ==== Proof.BlockValue.lean ====
/-
  The kernel body's arithmetic at one grid point, read entry by entry.

  The body builds a [1024, 512] matrix out of the eight [128, 64] weight planes: its block (a, o) — rows 128 a …, columns
  64 o … — is the plane of the partner blade of (a, o), or zero minus that plane when the product of the two blades is
  negative; it lays the eight [64, 128] planes of its batch tile of x side by side into a [64, 1024] matrix; and it stores
  their product, accumulated from zero. So the stored tile has, at row r and column 64 o + u,

      Σ_a Σ_f x[a, r, f] · (± w[partner a o, f, u]),

  which `Cert.Blades.blockSum_eq` identifies with the layer's output. The changes of float format in the body are the
  identity on the extended reals.
-/
import proofs.«177274_j60069412602337_2_alg».proof.Proof.Gen.KernelIdeal.Frame
import proofs.«177274_j60069412602337_2_alg».proof.Proof.LibDotInner
import proofs.«177274_j60069412602337_2_alg».proof.Proof.LibCatEight
import proofs.«177274_j60069412602337_2_alg».proof.Proof.Blades
import Idealize.ShloMosaic.Lib.ValueLayout
import Idealize.ShloMosaic.Lib.Pipeline.Value

noncomputable section

open scoped BigOperators

namespace Cert.KernelIdeal.BlockValue

open Idealize.ShloMosaic Idealize.ShloMosaic.ValueIdx Idealize.ShloMosaic.CatEight
open Cert.KernelIdeal Cert.KernelIdeal.Gen Cert.Blades

variable [Facts]

/-! ## Coordinates -/

/-- Column 64 o + u of the 512: unit u of output blade o. -/
def col (o : Fin 8) (u : Fin 64) : Fin 512 := ⟨64 * o.val + u.val, by omega⟩
/-- Position 128 a + f of the 1024: feature f of left blade a. -/
def pos (a : Fin 8) (f : Fin 128) : Fin 1024 := ⟨128 * a.val + f.val, by omega⟩

theorem col_div (o : Fin 8) (u : Fin 64) : (col o u).val / 64 = o.val := by simp only [col]; omega
theorem col_mod (o : Fin 8) (u : Fin 64) : u.val = (col o u).val % 64 := by simp only [col]; omega
theorem pos_div (a : Fin 8) (f : Fin 128) : (pos a f).val / 128 = a.val := by simp only [pos]; omega
theorem pos_mod (a : Fin 8) (f : Fin 128) : f.val = (pos a f).val % 128 := by simp only [pos]; omega

/-- Off the second axis an index (f, u) of a piece and (f, c) of the whole agree. -/
theorem offAxis1 {A B C : Nat} (f : Fin A) (u : Fin B) (c : Fin C) (b : Fin 2) (hb : b ≠ 1) :
    ((ix2 f u : (⟨2, ![A, B]⟩ : Shape).Idx) b).val = ((ix2 f c : (⟨2, ![A, C]⟩ : Shape).Idx) b).val := by
  match b with
  | ⟨0, _⟩ => rfl
  | ⟨1, _⟩ => exact absurd rfl hb

/-- Off the first axis an index (f, c) of a piece and (k, c) of the whole agree. -/
theorem offAxis0 {A B C : Nat} (f : Fin A) (k : Fin B) (c : Fin C) (b : Fin 2) (hb : b ≠ 0) :
    ((ix2 f c : (⟨2, ![A, C]⟩ : Shape).Idx) b).val = ((ix2 k c : (⟨2, ![B, C]⟩ : Shape).Idx) b).val := by
  match b with
  | ⟨0, _⟩ => exact absurd rfl hb
  | ⟨1, _⟩ => rfl

/-- A sum over the 1024 positions is the sum over the left blade of the sums over the feature. -/
theorem sum_pos (g : Fin 1024 → EReal) : ∑ k : Fin 1024, g k = ∑ a : Fin 8, ∑ f : Fin 128, g (pos a f) := by
  rw [← Fintype.sum_prod_type' (fun a f => g (pos a f))]
  refine (Fintype.sum_equiv (finProdFinEquiv (m := 8) (n := 128)) _ _ (fun af => ?_)).symm
  congr 1
  exact Fin.ext (by simp only [finProdFinEquiv_apply_val, pos]; omega)

/-! ## The weight matrix -/

/-- The zero the body subtracts from. -/
abbrev z16 : Ideal .bf16 := Scalar.ofBits .bf16 0x0000#16

theorem z16_eq : z16 = (0 : EReal) := by
  show Ideal.ofBits .bf16 0x0000#16 = 0
  simp [Ideal.ofBits, Ideal.ieee]

/-- The eight weight planes as the body holds them. -/
def planes (L0 L1 L2 L3 L4 L5 L6 L7 : Vec Ideal S1x128x64 .f32) : Fin 8 → FVec Ideal S128x64 .bf16 :=
  ![k0_pay2 L0, k0_pay3 L1, k0_pay4 L2, k0_pay5 L3, k0_pay6 L4, k0_pay7 L5, k0_pay8 L6, k0_pay9 L7]

/-- Entry (f, u) of block (a, o), over the planes `T` and the subtracted-from value `z`. -/
def blockOf (T : Fin 8 → FVec Ideal S128x64 .bf16) (z : Ideal .bf16) (a o : Fin 8) (f : Fin 128) (u : Fin 64) : EReal :=
  if partnerNeg a o then z - T (partner a o) (ix2 f u) else T (partner a o) (ix2 f u)

/-- Row block 0 of the weight matrix, read at (f, 64 o + u): the signed plane of the partner of left blade 0. -/
theorem row0_apply (L0 L1 L2 L3 L4 L5 L6 L7 : Vec Ideal S1x128x64 .f32) (o : Fin 8) (f : Fin 128) (u : Fin 64) :
    (k0_pay10 L0 L1 L2 L3 L4 L5 L6 L7) (ix2 f (col o u)) = blockOf (planes L0 L1 L2 L3 L4 L5 L6 L7) z16 0 o f u := by
  unfold k0_pay10
  refine (concatenate_eight_apply (t := S128x512) (s₁ := S128x64) (1 : Fin 2) _ _ _ _ _ _ _ _ _ rfl 64 rfl (ix2 f (col o u)) o (col_div o u) (ix2 f u) (col_mod o u)
    (fun b hb => ?_)).trans ?_
  · exact offAxis1 f u (col o u) b hb
  · fin_cases o <;> rfl

/-- Row block 1 of the weight matrix, read at (f, 64 o + u): the signed plane of the partner of left blade 1. -/
theorem row1_apply (L0 L1 L2 L3 L4 L5 L6 L7 : Vec Ideal S1x128x64 .f32) (o : Fin 8) (f : Fin 128) (u : Fin 64) :
    (k0_pay11 L0 L1 L2 L3 L4 L5 L6 L7) (ix2 f (col o u)) = blockOf (planes L0 L1 L2 L3 L4 L5 L6 L7) z16 1 o f u := by
  unfold k0_pay11
  refine (concatenate_eight_apply (t := S128x512) (s₁ := S128x64) (1 : Fin 2) _ _ _ _ _ _ _ _ _ rfl 64 rfl (ix2 f (col o u)) o (col_div o u) (ix2 f u) (col_mod o u)
    (fun b hb => ?_)).trans ?_
  · exact offAxis1 f u (col o u) b hb
  · fin_cases o <;> rfl

/-- Row block 2 of the weight matrix, read at (f, 64 o + u): the signed plane of the partner of left blade 2. -/
theorem row2_apply (L0 L1 L2 L3 L4 L5 L6 L7 : Vec Ideal S1x128x64 .f32) (o : Fin 8) (f : Fin 128) (u : Fin 64) :
    (k0_pay15 (k0_pay2 L0) (k0_pay4 L2) (k0_pay5 L3) (k0_pay7 L5) (k0_pay8 L6) (k0_pay12 L4) (k0_pay13 L1) (k0_pay14 L7)) (ix2 f (col o u)) = blockOf (planes L0 L1 L2 L3 L4 L5 L6 L7) z16 2 o f u := by
  unfold k0_pay15
  refine (concatenate_eight_apply (t := S128x512) (s₁ := S128x64) (1 : Fin 2) _ _ _ _ _ _ _ _ _ rfl 64 rfl (ix2 f (col o u)) o (col_div o u) (ix2 f u) (col_mod o u)
    (fun b hb => ?_)).trans ?_
  · exact offAxis1 f u (col o u) b hb
  · fin_cases o <;> rfl

/-- Row block 3 of the weight matrix, read at (f, 64 o + u): the signed plane of the partner of left blade 3. -/
theorem row3_apply (L0 L1 L2 L3 L4 L5 L6 L7 : Vec Ideal S1x128x64 .f32) (o : Fin 8) (f : Fin 128) (u : Fin 64) :
    (k0_pay16 (k0_pay2 L0) (k0_pay3 L1) (k0_pay4 L2) (k0_pay5 L3) (k0_pay6 L4) (k0_pay7 L5) (k0_pay8 L6) (k0_pay9 L7)) (ix2 f (col o u)) = blockOf (planes L0 L1 L2 L3 L4 L5 L6 L7) z16 3 o f u := by
  unfold k0_pay16
  refine (concatenate_eight_apply (t := S128x512) (s₁ := S128x64) (1 : Fin 2) _ _ _ _ _ _ _ _ _ rfl 64 rfl (ix2 f (col o u)) o (col_div o u) (ix2 f u) (col_mod o u)
    (fun b hb => ?_)).trans ?_
  · exact offAxis1 f u (col o u) b hb
  · fin_cases o <;> rfl

/-- Row block 4 of the weight matrix, read at (f, 64 o + u): the signed plane of the partner of left blade 4. -/
theorem row4_apply (L0 L1 L2 L3 L4 L5 L6 L7 : Vec Ideal S1x128x64 .f32) (o : Fin 8) (f : Fin 128) (u : Fin 64) :
    (k0_pay17 (k0_pay2 L0) (k0_pay3 L1) (k0_pay4 L2) (k0_pay5 L3) (k0_pay6 L4) (k0_pay7 L5) (k0_pay8 L6) (k0_pay9 L7)) (ix2 f (col o u)) = blockOf (planes L0 L1 L2 L3 L4 L5 L6 L7) z16 4 o f u := by
  unfold k0_pay17
  refine (concatenate_eight_apply (t := S128x512) (s₁ := S128x64) (1 : Fin 2) _ _ _ _ _ _ _ _ _ rfl 64 rfl (ix2 f (col o u)) o (col_div o u) (ix2 f u) (col_mod o u)
    (fun b hb => ?_)).trans ?_
  · exact offAxis1 f u (col o u) b hb
  · fin_cases o <;> rfl

/-- Row block 5 of the weight matrix, read at (f, 64 o + u): the signed plane of the partner of left blade 5. -/
theorem row5_apply (L0 L1 L2 L3 L4 L5 L6 L7 : Vec Ideal S1x128x64 .f32) (o : Fin 8) (f : Fin 128) (u : Fin 64) :
    (k0_pay18 (k0_pay2 L0) (k0_pay3 L1) (k0_pay4 L2) (k0_pay5 L3) (k0_pay6 L4) (k0_pay7 L5) (k0_pay8 L6) (k0_pay9 L7)) (ix2 f (col o u)) = blockOf (planes L0 L1 L2 L3 L4 L5 L6 L7) z16 5 o f u := by
  unfold k0_pay18
  refine (concatenate_eight_apply (t := S128x512) (s₁ := S128x64) (1 : Fin 2) _ _ _ _ _ _ _ _ _ rfl 64 rfl (ix2 f (col o u)) o (col_div o u) (ix2 f u) (col_mod o u)
    (fun b hb => ?_)).trans ?_
  · exact offAxis1 f u (col o u) b hb
  · fin_cases o <;> rfl

/-- Row block 6 of the weight matrix, read at (f, 64 o + u): the signed plane of the partner of left blade 6. -/
theorem row6_apply (L0 L1 L2 L3 L4 L5 L6 L7 : Vec Ideal S1x128x64 .f32) (o : Fin 8) (f : Fin 128) (u : Fin 64) :
    (k0_pay19 (k0_pay2 L0) (k0_pay3 L1) (k0_pay4 L2) (k0_pay5 L3) (k0_pay6 L4) (k0_pay7 L5) (k0_pay8 L6) (k0_pay9 L7)) (ix2 f (col o u)) = blockOf (planes L0 L1 L2 L3 L4 L5 L6 L7) z16 6 o f u := by
  unfold k0_pay19
  refine (concatenate_eight_apply (t := S128x512) (s₁ := S128x64) (1 : Fin 2) _ _ _ _ _ _ _ _ _ rfl 64 rfl (ix2 f (col o u)) o (col_div o u) (ix2 f u) (col_mod o u)
    (fun b hb => ?_)).trans ?_
  · exact offAxis1 f u (col o u) b hb
  · fin_cases o <;> rfl

/-- Row block 7, which the body builds in place. -/
theorem row7_apply (L0 L1 L2 L3 L4 L5 L6 L7 : Vec Ideal S1x128x64 .f32) (o : Fin 8) (f : Fin 128) (u : Fin 64) :
    (concatenate (α := Ideal .bf16) S128x512 1 [⟨S128x64, k0_pay20 (k0_pay9 L7)⟩, ⟨S128x64, subf (broadcast S128x64 (Scalar.ofBits .bf16 0x0000#16)) (k0_pay8 L6)⟩, ⟨S128x64, k0_pay7 L5⟩, ⟨S128x64, subf (broadcast S128x64 (Scalar.ofBits .bf16 0x0000#16)) (k0_pay6 L4)⟩, ⟨S128x64, k0_pay5 L3⟩, ⟨S128x64, subf (broadcast S128x64 (Scalar.ofBits .bf16 0x0000#16)) (k0_pay4 L2)⟩, ⟨S128x64, k0_pay3 L1⟩, ⟨S128x64, k0_pay2 L0⟩]
      Facts₀.concatenates_S128x64_S128x64_S128x64_S128x64_S128x64_S128x64_S128x64_S128x64_S128x512_d1) (ix2 f (col o u))
      = blockOf (planes L0 L1 L2 L3 L4 L5 L6 L7) z16 7 o f u := by
  refine (concatenate_eight_apply (t := S128x512) (s₁ := S128x64) (1 : Fin 2) _ _ _ _ _ _ _ _ _ rfl 64 rfl (ix2 f (col o u)) o (col_div o u) (ix2 f u) (col_mod o u)
    (fun b hb => ?_)).trans ?_
  · exact offAxis1 f u (col o u) b hb
  · fin_cases o <;> rfl

/-- The whole [1024, 512] matrix at (128 a + f, 64 o + u). -/
theorem wbig_apply (L0 L1 L2 L3 L4 L5 L6 L7 : Vec Ideal S1x128x64 .f32) (a o : Fin 8) (f : Fin 128) (u : Fin 64) :
    (k0_pay21 (k0_pay2 L0) (k0_pay3 L1) (k0_pay4 L2) (k0_pay5 L3) (k0_pay6 L4) (k0_pay7 L5) (k0_pay8 L6)
      (k0_pay10 L0 L1 L2 L3 L4 L5 L6 L7) (k0_pay11 L0 L1 L2 L3 L4 L5 L6 L7) (k0_pay15 (k0_pay2 L0) (k0_pay4 L2) (k0_pay5 L3) (k0_pay7 L5) (k0_pay8 L6) (k0_pay12 L4) (k0_pay13 L1) (k0_pay14 L7)) (k0_pay16 (k0_pay2 L0) (k0_pay3 L1) (k0_pay4 L2) (k0_pay5 L3) (k0_pay6 L4) (k0_pay7 L5) (k0_pay8 L6) (k0_pay9 L7)) (k0_pay17 (k0_pay2 L0) (k0_pay3 L1) (k0_pay4 L2) (k0_pay5 L3) (k0_pay6 L4) (k0_pay7 L5) (k0_pay8 L6) (k0_pay9 L7)) (k0_pay18 (k0_pay2 L0) (k0_pay3 L1) (k0_pay4 L2) (k0_pay5 L3) (k0_pay6 L4) (k0_pay7 L5) (k0_pay8 L6) (k0_pay9 L7)) (k0_pay19 (k0_pay2 L0) (k0_pay3 L1) (k0_pay4 L2) (k0_pay5 L3) (k0_pay6 L4) (k0_pay7 L5) (k0_pay8 L6) (k0_pay9 L7))
      (k0_pay20 (k0_pay9 L7)) (Scalar.ofBits .bf16 0x0000#16)) (ix2 (pos a f) (col o u))
      = blockOf (planes L0 L1 L2 L3 L4 L5 L6 L7) z16 a o f u := by
  unfold k0_pay21
  refine (concatenate_eight_apply (t := S1024x512) (s₁ := S128x512) (0 : Fin 2) _ _ _ _ _ _ _ _ _ rfl 128 rfl (ix2 (pos a f) (col o u)) a (pos_div a f) (ix2 f (col o u)) (pos_mod a f)
    (fun b hb => ?_)).trans ?_
  · exact offAxis0 f (pos a f) (col o u) b hb
  · fin_cases a
    · exact row0_apply L0 L1 L2 L3 L4 L5 L6 L7 o f u
    · exact row1_apply L0 L1 L2 L3 L4 L5 L6 L7 o f u
    · exact row2_apply L0 L1 L2 L3 L4 L5 L6 L7 o f u
    · exact row3_apply L0 L1 L2 L3 L4 L5 L6 L7 o f u
    · exact row4_apply L0 L1 L2 L3 L4 L5 L6 L7 o f u
    · exact row5_apply L0 L1 L2 L3 L4 L5 L6 L7 o f u
    · exact row6_apply L0 L1 L2 L3 L4 L5 L6 L7 o f u
    · exact row7_apply L0 L1 L2 L3 L4 L5 L6 L7 o f u

/-! ## The planes, the batch tile of x, and the loads -/

/-- A weight plane as the body holds it is the loaded [1, 128, 64] slab without its unit axis (the change of float format
    is the identity). -/
theorem planes_apply (L0 L1 L2 L3 L4 L5 L6 L7 : Vec Ideal S1x128x64 .f32) (b : Fin 8) (f : Fin 128) (u : Fin 64) :
    planes L0 L1 L2 L3 L4 L5 L6 L7 b (ix2 f u) = (![L0, L1, L2, L3, L4, L5, L6, L7] : Fin 8 → Vec Ideal S1x128x64 .f32) b (ix3 0 f u) := by
  fin_cases b <;> exact shapeCast_1ab_ab_apply _ _ f u

/-- The [64, 1024] matrix of the batch tile: at (r, 128 a + f) the loaded slab of left blade a at (r, f). -/
theorem xcat_apply (M0 M1 M2 M3 M4 M5 M6 M7 : Vec Ideal S1x64x128 .f32) (r : Fin 64) (a : Fin 8) (f : Fin 128) :
    k0_pay22 M0 M1 M2 M3 M4 M5 M6 M7 (ix2 r (pos a f)) = (![M0, M1, M2, M3, M4, M5, M6, M7] : Fin 8 → Vec Ideal S1x64x128 .f32) a (ix3 0 r f) := by
  unfold k0_pay22
  refine (concatenate_eight_apply (t := S64x1024) (s₁ := S64x128) (1 : Fin 2) _ _ _ _ _ _ _ _ _ rfl 128 rfl (ix2 r (pos a f)) a (pos_div a f) (ix2 r f) (pos_mod a f)
    (fun b hb => ?_)).trans ?_
  · exact offAxis1 r f (pos a f) b hb
  · fin_cases a <;> exact shapeCast_1ab_ab_apply _ _ r f

/-- The eight loads of the weight window read plane b of the staged block. -/
theorem ld_w (x1 : Vec Ideal S8x128x64 .f32) (b : Fin 8) (f : Fin 128) (u : Fin 64) :
    (![View.ld x1 r0_0, View.ld x1 r0_1, View.ld x1 r0_2, View.ld x1 r0_3, View.ld x1 r0_4, View.ld x1 r0_5, View.ld x1 r0_6,
      View.ld x1 r0_7] : Fin 8 → Vec Ideal S1x128x64 .f32) b (ix3 0 f u) = x1 (ix3 b f u) := by
  fin_cases b <;> exact congrArg x1 (funext fun c => Fin.ext (by
    match c with
    | ⟨0, _⟩ => rfl
    | ⟨1, _⟩ => exact (show 0 + 1 * (f.val : Nat) = f.val by omega)
    | ⟨2, _⟩ => exact (show 0 + 1 * (u.val : Nat) = u.val by omega)))

/-- The eight loads of the x window read plane a of the staged block. -/
theorem ld_x (x0 : Vec Ideal S8x64x128 .f32) (a : Fin 8) (r : Fin 64) (f : Fin 128) :
    (![View.ld x0 r0_8, View.ld x0 r0_9, View.ld x0 r0_10, View.ld x0 r0_11, View.ld x0 r0_12, View.ld x0 r0_13, View.ld x0 r0_14,
      View.ld x0 r0_15] : Fin 8 → Vec Ideal S1x64x128 .f32) a (ix3 0 r f) = x0 (ix3 a r f) := by
  fin_cases a <;> exact congrArg x0 (funext fun c => Fin.ext (by
    match c with
    | ⟨0, _⟩ => rfl
    | ⟨1, _⟩ => exact (show 0 + 1 * (r.val : Nat) = r.val by omega)
    | ⟨2, _⟩ => exact (show 0 + 1 * (f.val : Nat) = f.val by omega)))

/-! ## The matrix product and the tile -/

abbrev D := dot_S64x1024_S1024x512_S64x512_1_0_0_1_n_n

theorem D_rank : (D).contr.rank = 1 := rfl
theorem D_size : (D).contr.size ⟨0, by rw [D_rank]; omega⟩ = 1024 := rfl
theorem D_l0 : ∀ (j : S64x512.Idx) (q : (D).contr.Idx), ((D).lhsIdx j q 0).val = (j 0).val := fun _ _ => rfl
theorem D_l1 : ∀ (j : S64x512.Idx) (q : (D).contr.Idx), ((D).lhsIdx j q 1).val = (q ⟨0, by rw [D_rank]; omega⟩).val := fun _ _ => rfl
theorem D_r0 : ∀ (j : S64x512.Idx) (q : (D).contr.Idx), ((D).rhsIdx j q 0).val = (q ⟨0, by rw [D_rank]; omega⟩).val := fun _ _ => rfl
theorem D_r1 : ∀ (j : S64x512.Idx) (q : (D).contr.Idx), ((D).rhsIdx j q 1).val = (j 1).val := fun _ _ => rfl

/-- The product accumulated from zero, at (r, c): the sum over the left blade and the feature. -/
theorem prod_apply (wb : FVec Ideal S1024x512 .bf16) (xc : FVec Ideal S64x1024 .bf16) (r : Fin 64) (c : Fin 512) :
    k0_pay1 wb xc (constant S64x512 .f32 0x00000000#32) (ix2 r c) = ∑ a : Fin 8, ∑ f : Fin 128, xc (ix2 r (pos a f)) * wb (ix2 (pos a f) c) := by
  unfold k0_pay1
  refine (Idealize.ShloMosaic.DotInner.matmul_zero_apply D D_rank D_size D_l0 D_l1 D_r0 D_r1 none xc wb r c).trans ?_
  exact sum_pos _

theorem whole_zero : (![0, 0] : Fin 2 → Nat) = fun _ => 0 := by
  funext a; match a with | ⟨0, _⟩ => rfl | ⟨1, _⟩ => rfl

/-- THE TILE: what the body leaves in the output block, from the two staged input blocks, at row r and column 64 o + u. -/
theorem tile_apply (x0 : Vec Ideal S8x64x128 .f32) (x1 : Vec Ideal S8x128x64 .f32) (r : Fin 64) (o : Fin 8) (u : Fin 64) :
    out0_2 x0 x1 (ix2 r (col o u)) = ∑ a : Fin 8, ∑ f : Fin 128, x0 (ix3 a r f) * block x1 a o f u := by
  unfold out0_2
  rw [View.canon_unit_zero whole_zero, prod_apply]
  refine Finset.sum_congr rfl fun a _ => Finset.sum_congr rfl fun f _ => ?_
  rw [xcat_apply, ld_x, wbig_apply]
  unfold blockOf block
  rw [planes_apply, ld_w, z16_eq]

end Cert.KernelIdeal.BlockValue

end
-- ==== Proof.KernelValue.lean ====
/-
  The kernel program's result as a function of its two argument arrays.

  The region runs the body at two grid points; point t stages rows 64 t … 64 t + 63 of every blade plane of x and the
  whole weight array, and writes back tile t — rows 64 t … of a [128, 512] array. Entry (64 t + r, 64 o + u) of that
  array is the body's sum over left blades and features (`BlockValue.tile_apply`), which is the layer's output at
  (o, 64 t + r, u) (`Blades.blockSum_eq`). The two tiles cover the array. After the region the program splits the 512
  columns into (8, 64) and swaps the first two axes, so its result at (o, R, u) is the array's entry (R, 64 o + u): the
  layer's output.
-/
import proofs.«177274_j60069412602337_2_alg».proof.Proof.BlockValue
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BlockValue Cert.Blades

variable (m : (ℓ : Loc nD τ sig) → Buf (Elt Ideal) ℓ) (ρ : Dev nD → PrngReg)

/-- The grid has two points. -/
theorem N2 : cfg0.N = 2 := N_0

/-- Row 64 t + r of the batch: row r of grid point t's tile. -/
def row (t : Fin cfg0.N) (r : Fin 64) : Fin 128 := ⟨64 * t.val + r.val, by have := t.isLt; have h2 := N2; omega⟩

/-- The printed index maps over the grid: the x window moves along the batch axis with the point, the weight window stays,
    the output window moves along its rows with the point. -/
theorem idx_facts : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Tile t of x, read at (a, r, f), is x at (a, 64 t + r, f). -/
theorem x_blk (c : Dev nD) (t : Fin cfg0.N) (a : Fin 8) (r : Fin 64) (f : Fin 128) :
    iblk m c 0 t (ix3 a r f) = V m c main_arg0 (ix3 a (row t r) f) := by
  show V m c main_arg0 (((cfg0.win 0).blk t).view.emb (ix3 a r f)) = V m c main_arg0 (ix3 a (row t r) f)
  refine congrArg _ (funext fun d => Fin.ext ?_)
  obtain ⟨e0, e1, e2, -⟩ := idx_facts t
  match d with
  | ⟨0, _⟩ => show win0_0.index t (0 : Fin 3) * 8 + 1 * a.val = a.val; omega
  | ⟨1, _⟩ => show win0_0.index t (1 : Fin 3) * 64 + 1 * r.val = 64 * t.val + r.val; omega
  | ⟨2, _⟩ => show win0_0.index t (2 : Fin 3) * 128 + 1 * f.val = f.val; omega

/-- The weight window's block is the whole weight array at every point. -/
theorem w_blk (c : Dev nD) (t : Fin cfg0.N) : (iblk m c 1 t : S8x128x64.Idx → EReal) = V m c main_arg1 := by
  funext y
  show V m c main_arg1 (((cfg0.win 1).blk t).view.emb y) = V m c main_arg1 y
  refine congrArg _ (funext fun d => Fin.ext ?_)
  obtain ⟨-, -, -, e0, e1, e2, -⟩ := idx_facts t
  match d with
  | ⟨0, _⟩ => show win0_1.index t (0 : Fin 3) * 8 + 1 * (y 0).val = (y 0).val; omega
  | ⟨1, _⟩ => show win0_1.index t (1 : Fin 3) * 128 + 1 * (y 1).val = (y 1).val; omega
  | ⟨2, _⟩ => show win0_1.index t (2 : Fin 3) * 64 + 1 * (y 2).val = (y 2).val; omega

/-! ## From the tiles to the array -/

/-- The output blade and the unit of a column of the 512. -/
def blade (cc : Fin 512) : Fin 8 := ⟨cc.val / 64, by omega⟩
def unitOf (cc : Fin 512) : Fin 64 := ⟨cc.val % 64, by omega⟩
theorem blade_col (o : Fin 8) (u : Fin 64) : blade (col o u) = o := Fin.ext (col_div o u)
theorem unitOf_col (o : Fin 8) (u : Fin 64) : unitOf (col o u) = u := Fin.ext (col_mod o u).symm
theorem col_blade_unitOf (cc : Fin 512) : col (blade cc) (unitOf cc) = cc := Fin.ext (by simp only [col, blade, unitOf]; omega)

/-- The [128, 512] array the region leaves: row R, column 64 o + u holds the layer's output at (o, R, u). -/
def flat (x : XArr) (w : WArr) : S128x512.Idx → EReal := fun i => outAt x w (blade (i 1)) (i 0) (unitOf (i 1))

theorem flat_apply (x : XArr) (w : WArr) (R : Fin 128) (o : Fin 8) (u : Fin 64) : flat x w (ix2 R (col o u)) = outAt x w o R u := by
  show outAt x w (blade (col o u)) R (unitOf (col o u)) = _
  rw [blade_col, unitOf_col]

/-- What grid point t writes back is tile t of that array. -/
theorem flushed_eq (c : Dev nD) (t : Fin cfg0.N) :
    (dats m 0 c).flushed 2 t = ((cfg0.win 2).blk t).view.read (Elt Ideal) (flat (V m c main_arg0) (V m c main_arg1)) := by
  show (cfg0.win 2).cut (grid0.coords t) ((dats m 0 c).after 2 t) = _
  rw [after0_2]
  refine funext fun (j : S64x512.Idx) => ?_
  obtain ⟨r, cc, rfl⟩ : ∃ (r : Fin 64) (cc : Fin 512), j = ix2 r cc := ⟨j 0, j 1, eq_ix2 j⟩
  obtain ⟨o, u, rfl⟩ : ∃ o u, cc = col o u := ⟨blade cc, unitOf cc, (col_blade_unitOf cc).symm⟩
  show out0_2 (iblk m c 0 t) (iblk m c 1 t) (ix2 r (col o u)) = flat _ _ (((cfg0.win 2).blk t).view.emb (ix2 r (col o u)))
  have hemb : ((cfg0.win 2).blk t).view.emb (ix2 r (col o u)) = ix2 (row t r) (col o u) := by
    funext d; apply Fin.ext
    obtain ⟨-, -, -, -, -, -, e0, e1⟩ := idx_facts t
    match d with
    | ⟨0, _⟩ => show win0_2.index t (0 : Fin 2) * 64 + 1 * r.val = 64 * t.val + r.val; omega
    | ⟨1, _⟩ => show win0_2.index t (1 : Fin 2) * 512 + 1 * (col o u).val = (col o u).val; omega
  rw [hemb, flat_apply]
  refine (tile_apply (iblk m c 0 t) (iblk m c 1 t) r o u).trans ?_
  rw [w_blk]
  refine (Finset.sum_congr rfl fun a _ => Finset.sum_congr rfl fun f _ => by rw [x_blk]).trans ?_
  exact blockSum_eq _ _ o (row t r) u

/-- An index of the array is in point t's tile iff each coordinate is in the tile's range on its axis. -/
theorem mem_blk (t : Fin cfg0.N) (i : S128x512.Idx) :
    i ∈ ((cfg0.win 2).blk t).view.set ↔ ∀ a : Fin 2, win0_2.index t a * S64x512.size a ≤ (i a).val ∧ (i a).val < win0_2.index t a * S64x512.size a + S64x512.size a := by
  show i ∈ ((View.whole main_v0).slice (win0_2.rect t)).set ↔ _
  rw [View.set_slice_whole, Rect.mem_set_unit]
  exact Iff.rfl

/-- The two tiles cover the array: row R lies in tile R / 64. -/
theorem cover (i : S128x512.Idx) : ∃ t : Fin cfg0.N, (cfg0.win 2).flush t = true ∧ i ∈ ((cfg0.win 2).blk t).view.set := by
  have hi0 : (i 0).val < 128 := (i 0).isLt
  have hi1 : (i 1).val < 512 := (i 1).isLt
  refine ⟨⟨(i 0).val / 64, by rw [N2]; omega⟩, flush0_2 _, ?_⟩
  rw [mem_blk]
  obtain ⟨-, -, -, -, -, -, e0, e1⟩ := idx_facts ⟨(i 0).val / 64, by rw [N2]; omega⟩
  intro a
  match a with
  | ⟨0, _⟩ => show win0_2.index _ (0 : Fin 2) * 64 ≤ (i 0).val ∧ (i 0).val < win0_2.index _ (0 : Fin 2) * 64 + 64; rw [e0]; show (i 0).val / 64 * 64 ≤ _ ∧ _ < (i 0).val / 64 * 64 + 64; omega
  | ⟨1, _⟩ => show win0_2.index _ (1 : Fin 2) * 512 ≤ (i 1).val ∧ (i 1).val < win0_2.index _ (1 : Fin 2) * 512 + 512; rw [e1]; omega

/-- The region's output array after the run. -/
theorem final (c : Dev nD) : (dats m 0 c).arrAt 2 cfg0.N = flat (V m c main_arg0) (V m c main_arg1) :=
  (dats m 0 c).arrAt_eq_of_cover 2 _ (fun t _ => flushed_eq m c t) cover

/-- The program's result buffer is none of the region's arrays. -/
theorem v2_rest : main_v2 ∈ Pipeline.restRefs sig (cfgs 0).spec := by decide

/-- The host tail: the [128, 512] array split into [128, 8, 64] and its first two axes swapped is the layer's output. -/
theorem tail_eq (c : Dev nD) :
    Pipeline.afterTail₀ cfgs (dats m) 0 (V0 m) [hostOps1] c main_v2 = out (m ((c.tc : Thread nD τ).loc main_arg0)) (m ((c.tc : Thread nD τ).loc main_arg1)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.tc.devRef main_v0)
      = flat (m ((c.tc : Thread nD τ).loc main_arg0)) (m ((c.tc : Thread nD τ).loc main_arg1)) :=
    ((Pipeline.withArrays_arr spec0 launch0.win.arr_inj c _ _ 2).trans (final m c)).trans (by rw [V_main_arg0, V_main_arg1])
  rw [hA]
  funext j
  obtain ⟨o, R, u, rfl⟩ : ∃ (o : Fin 8) (R : Fin 128) (u : Fin 64), j = ix3 o R u := ⟨j 0, j 1, j 2, eq_ix3 j⟩
  rw [out_apply]
  refine (transpose_apply _ _ _ _ (ix3 R o u) (fun b => by match b with | ⟨0, _⟩ => rfl | ⟨1, _⟩ => rfl | ⟨2, _⟩ => rfl)).trans ?_
  show shapeCast S128x8x64 (flat _ _) shapeCasts_S128x512_S128x8x64 (ix3 R o u) = _
  refine (shapeCast_apply _ _ _ (ix2 R (col o u)) ?_).trans (flat_apply _ _ R o u)
  rw [Shape.rowMajor_val_three, Shape.rowMajor_val_two]
  show R.val * 512 + (col o u).val = (R.val * 8 + o.val) * 64 + u.val
  simp only [col]; omega

/-! ## The run -/

/-- Every weakly fair execution of the kernel program terminates with its result at the layer's output of the argument
    arrays, and the arguments unchanged. -/
theorem run : θ_run defs (onTc (τ := τ) (main (F := Ideal))) ⟨m, fun _ => 0, ρ⟩ fun r => ∀ c : Dev nD,
      r.2.mem ((c.tc : Thread nD τ).loc main_v2) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 v2_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.RefRun.lean ====
import proofs.«177274_j60069412602337_2_alg».proof.Proof.Gen.ReferenceIdeal
import Idealize.ShloMosaic.Lib.StableHlo.Run

/-!
# The reference program's run

The reference program is a straight line of 32 array operations on two argument arrays
`x : [8,128,128]` and `w : [8,128,64]`, with no kernel launch. It carries four constant tables of
length 64, indexed by a pair index `p`: a sign `s p = ±1`, a left block `A p`, a right block `B p`
and an output segment `O p` (each block and segment in `0 … 7`). What it computes is

  `out[o, a, k] = Σ_b  Σ_{p : O p = o}  (s p · x[A p, a, b]) · w[B p, b, k]`,

that is, `out[o] = Σ_{p : O p = o} s p · (x[A p] · w[B p])` as `128 × 128` by `128 × 64` matrix
products: the signed products `(s p · x[A p, a, b]) · w[B p, b, k]` of every pair `p` form an array
of shape `[64,128,128,64]`, whose slice `p` is added into the segment `O p` of a zero array of
shape `[8,128,128,64]` (a scatter-add along the first axis), and that array is then summed over
its axis 2, the contracted index `b`.

This module lists the program's operations in order, shows that the program is that list run as a
line, and reads the run back: every weakly fair execution terminates with the result buffer at
`refTerm x w`, a pure term of the two argument arrays, and the arguments unchanged. The term is
stated through named stages, so that later reasoning goes stage by stage and never meets the
composed term of all 32 operations at once.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 32 operations, in order. -/
abbrev ops : List (HloOp τ sig (Elt F)) :=
  [ nullary main_cst (fun i => FloatOps.ofBits .f32 (lit0 (S64.rowMajor i))),
    nullary main_c (fun i => lit1 (S64.rowMajor i)),
    nullary main_c_0 (constantI S64 1 0#1),
    nullary main_c_1 (fun i => lit2 (S64.rowMajor i)),
    nullary main_c_2 (constantI S64 1 0#1),
    nullary main_c_3 (fun i => lit3 (S64.rowMajor i)),
    unary main_cst main_v0 (broadcastInDim S64x1x1x1 ![0] bcast_S64_S64x1x1x1_0 : (⟨S64, .f32⟩ : BufTy).Contents (Elt F) → (⟨S64x1x1x1, .f32⟩ : BufTy).Contents (Elt F)),
    nullary main_c_4 (constantI S_ 32 8#32),
    unary main_c_4 main_v1 (broadcastInDim S64 ![] bcast_S_S64 : (⟨S_, .i32⟩ : BufTy).Contents (Elt F) → (⟨S64, .i32⟩ : BufTy).Contents (Elt F)),
    binary main_c main_v1 main_v2 (addi : (⟨S64, .i32⟩ : BufTy).Contents (Elt F) → (⟨S64, .i32⟩ : BufTy).Contents (Elt F) → (⟨S64, .i32⟩ : BufTy).Contents (Elt F)),
    ternary main_c_0 main_v2 main_c main_v3 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v3 main_v4 (broadcastInDim S64x1 ![0] bcast_S64_S64x1_0 : (⟨S64, .i32⟩ : BufTy).Contents (Elt F) → (⟨S64x1, .i32⟩ : BufTy).Contents (Elt F)),
    binary main_arg0 main_v4 main_v5 ((fun x i => Host.gather gather_S8x128x128_S64x1_S64x128x128_12_0_n_n_0_1_1128128 x i) : (⟨S8x128x128, .f32⟩ : BufTy).Contents (Elt F) → (⟨S64x1, .i32⟩ : BufTy).Contents (Elt F) → (⟨S64x128x128, .f32⟩ : BufTy).Contents (Elt F)),
    unary main_v5 main_v6 (broadcastInDim S64x128x128x1 ![0, 1, 2] bcast_S64x128x128_S64x128x128x1_0_1_2 : (⟨S64x128x128, .f32⟩ : BufTy).Contents (Elt F) → (⟨S64x128x128x1, .f32⟩ : BufTy).Contents (Elt F)),
    nullary main_c_5 (constantI S_ 32 8#32),
    unary main_c_5 main_v7 (broadcastInDim S64 ![] bcast_S_S64 : (⟨S_, .i32⟩ : BufTy).Contents (Elt F) → (⟨S64, .i32⟩ : BufTy).Contents (Elt F)),
    binary main_c_1 main_v7 main_v8 (addi : (⟨S64, .i32⟩ : BufTy).Contents (Elt F) → (⟨S64, .i32⟩ : BufTy).Contents (Elt F) → (⟨S64, .i32⟩ : BufTy).Contents (Elt F)),
    ternary main_c_2 main_v8 main_c_1 main_v9 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v9 main_v10 (broadcastInDim S64x1 ![0] bcast_S64_S64x1_0 : (⟨S64, .i32⟩ : BufTy).Contents (Elt F) → (⟨S64x1, .i32⟩ : BufTy).Contents (Elt F)),
    binary main_arg1 main_v10 main_v11 ((fun x i => Host.gather gather_S8x128x64_S64x1_S64x128x64_12_0_n_n_0_1_112864 x i) : (⟨S8x128x64, .f32⟩ : BufTy).Contents (Elt F) → (⟨S64x1, .i32⟩ : BufTy).Contents (Elt F) → (⟨S64x128x64, .f32⟩ : BufTy).Contents (Elt F)),
    unary main_v11 main_v12 (broadcastInDim S64x1x128x64 ![0, 2, 3] bcast_S64x128x64_S64x1x128x64_0_2_3 : (⟨S64x128x64, .f32⟩ : BufTy).Contents (Elt F) → (⟨S64x1x128x64, .f32⟩ : BufTy).Contents (Elt F)),
    unary main_v0 main_v13 (broadcastInDim S64x128x128x1 ![0, 1, 2, 3] bcast_S64x1x1x1_S64x128x128x1_0_1_2_3 : (⟨S64x1x1x1, .f32⟩ : BufTy).Contents (Elt F) → (⟨S64x128x128x1, .f32⟩ : BufTy).Contents (Elt F)),
    binary main_v13 main_v6 main_v14 (mulf : (⟨S64x128x128x1, .f32⟩ : BufTy).Contents (Elt F) → (⟨S64x128x128x1, .f32⟩ : BufTy).Contents (Elt F) → (⟨S64x128x128x1, .f32⟩ : BufTy).Contents (Elt F)),
    unary main_v14 main_v15 (broadcastInDim S64x128x128x64 ![0, 1, 2, 3] bcast_S64x128x128x1_S64x128x128x64_0_1_2_3 : (⟨S64x128x128x1, .f32⟩ : BufTy).Contents (Elt F) → (⟨S64x128x128x64, .f32⟩ : BufTy).Contents (Elt F)),
    unary main_v12 main_v16 (broadcastInDim S64x128x128x64 ![0, 1, 2, 3] bcast_S64x1x128x64_S64x128x128x64_0_1_2_3 : (⟨S64x1x128x64, .f32⟩ : BufTy).Contents (Elt F) → (⟨S64x128x128x64, .f32⟩ : BufTy).Contents (Elt F)),
    binary main_v15 main_v16 main_v17 (mulf : (⟨S64x128x128x64, .f32⟩ : BufTy).Contents (Elt F) → (⟨S64x128x128x64, .f32⟩ : BufTy).Contents (Elt F) → (⟨S64x128x128x64, .f32⟩ : BufTy).Contents (Elt F)),
    nullary main_cst_6 (constant S_ .f32 0x00000000#32),
    unary main_cst_6 main_v18 (broadcastInDim S8x128x128x64 ![] bcast_S_S8x128x128x64 : (⟨S_, .f32⟩ : BufTy).Contents (Elt F) → (⟨S8x128x128x64, .f32⟩ : BufTy).Contents (Elt F)),
    unary main_c_3 main_v19 (broadcastInDim S64x1 ![0] bcast_S64_S64x1_0 : (⟨S64, .i32⟩ : BufTy).Contents (Elt F) → (⟨S64x1, .i32⟩ : BufTy).Contents (Elt F)),
    ternary main_v18 main_v19 main_v17 main_v20 ((fun x i u => Host.scatterAdd scatter_S8x128x128x64_S64x1_S64x128x128x64_123_0_0_1 x i u) : (⟨S8x128x128x64, .f32⟩ : BufTy).Contents (Elt F) → (⟨S64x1, .i32⟩ : BufTy).Contents (Elt F) → (⟨S64x128x128x64, .f32⟩ : BufTy).Contents (Elt F) → (⟨S8x128x128x64, .f32⟩ : BufTy).Contents (Elt F)),
    nullary main_cst_7 (constant S_ .f32 0x00000000#32),
    binary main_v20 main_cst_7 main_v21 ((fun x v => Host.reduceAdd x v reducesTo_S8x128x128x64_S8x128x64_d2 h_S_) : (⟨S8x128x128x64, .f32⟩ : BufTy).Contents (Elt F) → (⟨S_, .f32⟩ : BufTy).Contents (Elt F) → (⟨S8x128x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., unary_bufs_sub .., nullary_bufs_sub .., unary_bufs_sub .., binary_bufs_sub .., ternary_bufs_sub .., unary_bufs_sub .., binary_bufs_sub .., unary_bufs_sub .., nullary_bufs_sub .., unary_bufs_sub .., binary_bufs_sub .., ternary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., ternary_bufs_sub .., nullary_bufs_sub .., binary_bufs_sub ..⟩

/-! ## The result, stage by stage -/

/-- The table of signs `s`: entry `p` is the float whose bit pattern the sign table lists at `p`
    (`+1` or `-1`). -/
def sgnArr : FVec F S64 .f32 := fun i => FloatOps.ofBits .f32 (lit0 (S64.rowMajor i))

/-- The table `A` of left blocks: pair `p` reads block `A p` of `x`. -/
def tabA : IVec S64 32 := fun i => lit1 (S64.rowMajor i)

/-- The table `B` of right blocks: pair `p` reads block `B p` of `w`. -/
def tabB : IVec S64 32 := fun i => lit2 (S64.rowMajor i)

/-- The table `O` of output segments: pair `p` is added into segment `O p` of the result. -/
def tabO : IVec S64 32 := fun i => lit3 (S64.rowMajor i)

/-- The start indices a gather reads from a table of block numbers. The program first moves a
    negative index into range — `tab + 8` where a mask says the entry is negative, `tab` elsewhere —
    under a mask that is false everywhere, so the entries are `tab`'s own; then it writes the table
    as a column `[64,1]`, one index vector of length 1 per pair. -/
def startsOf (tab : IVec S64 32) : IVec S64x1 32 :=
  broadcastInDim S64x1 ![0] bcast_S64_S64x1_0
    (select (constantI S64 1 0#1) (addi tab (broadcastInDim S64 ![] bcast_S_S64 (constantI S_ 32 8#32))) tab)

/-- A table written as a column `[64,1]`: the scatter's index vectors, one of length 1 per pair. -/
def colOf (tab : IVec S64 32) : IVec S64x1 32 := broadcastInDim S64x1 ![0] bcast_S64_S64x1_0 tab

/-- The signed products of all pairs: at `[p, a, b, k]` the value `(s p · x[A p, a, b]) · w[B p, b, k]`.
    The left factor is block `A p` of `x` gathered to `[64,128,128]`, given a trailing unit axis,
    multiplied by the sign (itself spread from `[64]` over `[64,1,1,1]` to `[64,128,128,1]`), and
    spread along `k`; the right factor is block `B p` of `w` gathered to `[64,128,64]`, given a unit
    axis in second place, and spread along `a`. -/
def pairProd (x : FVec F S8x128x128 .f32) (w : FVec F S8x128x64 .f32) : FVec F S64x128x128x64 .f32 :=
  mulf
    (broadcastInDim S64x128x128x64 ![0, 1, 2, 3] bcast_S64x128x128x1_S64x128x128x64_0_1_2_3
      (mulf
        (broadcastInDim S64x128x128x1 ![0, 1, 2, 3] bcast_S64x1x1x1_S64x128x128x1_0_1_2_3
          (broadcastInDim S64x1x1x1 ![0] bcast_S64_S64x1x1x1_0 sgnArr))
        (broadcastInDim S64x128x128x1 ![0, 1, 2] bcast_S64x128x128_S64x128x128x1_0_1_2
          (Host.gather gather_S8x128x128_S64x1_S64x128x128_12_0_n_n_0_1_1128128 x (startsOf tabA)))))
    (broadcastInDim S64x128x128x64 ![0, 1, 2, 3] bcast_S64x1x128x64_S64x128x128x64_0_1_2_3
      (broadcastInDim S64x1x128x64 ![0, 2, 3] bcast_S64x128x64_S64x1x128x64_0_2_3
        (Host.gather gather_S8x128x64_S64x1_S64x128x64_12_0_n_n_0_1_112864 w (startsOf tabB))))

/-- The program's result: the signed products of all pairs added, slice `p` into segment `O p`, to
    a zero array of shape `[8,128,128,64]`, then summed over axis 2 from zero:
    `refTerm x w [o, a, k] = Σ_b Σ_{p : O p = o} (s p · x[A p, a, b]) · w[B p, b, k]`. -/
def refTerm (x : FVec F S8x128x128 .f32) (w : FVec F S8x128x64 .f32) : FVec F S8x128x64 .f32 :=
  Host.reduceAdd
    (Host.scatterAdd scatter_S8x128x128x64_S64x1_S64x128x128x64_123_0_0_1
      (broadcastInDim S8x128x128x64 ![] bcast_S_S8x128x128x64 (constant S_ .f32 0x00000000#32))
      (colOf tabO) (pairProd x w))
    (constant S_ .f32 0x00000000#32) reducesTo_S8x128x128x64_S8x128x64_d2 h_S_

/-- On every device, for any float values, from any memory with zero counters: every weakly fair execution of
    the program terminates with the result buffer at `refTerm` of the two arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.RefRead.lean ====
/-
  The reference program's four shape operations READ AT AN INDEX, at the ideal values (a float is an extended
  real) and for arbitrary index arrays: the two whole-plane gathers, the accumulating scatter over the leading
  axis (a segment sum), and the sum over the third axis.
-/
import proofs.«177274_j60069412602337_2_alg».proof.ReferenceIdeal
import Idealize.ShloMosaic.Lib.ValueIdx
import Idealize.ShloMosaic.Lib.IdealHost
import Idealize.ShloMosaic.PureOps.Ideal.Laws

noncomputable section

open scoped BigOperators

namespace Cert.ReferenceIdeal.RefRead

open Idealize.ShloMosaic Idealize.ShloMosaic.ValueIdx Cert.ReferenceIdeal

variable [Facts]
open Facts₀

/-! ## The sum over the third axis -/

/-- The reduction over axis 2 of an `[8, 128, 128, 64]` array, read at `(o, b, u)`: the initial value plus the
    sum over `f` of the entries `(o, b, f, u)`. -/
theorem reduceAdd_apply (y : FVec Ideal S8x128x128x64 .f32) (init : FVec Ideal S_ .f32) (o : Fin 8) (b : Fin 128) (u : Fin 64) :
    Host.reduceAdd (F := Ideal) y init reducesTo_S8x128x128x64_S8x128x64_d2 h_S_ (ix3 o b u) = init ix0 + ∑ f : Fin 128, y (ix4 o b f u) := by
  have h' := reducesTo_S8x128x128x64_S8x128x64_d2
  have h : S8x128x128x64.Reduces [2] S8x128x64 := ⟨h'.1, Nat.succ_pos 2, h'.2⟩
  show Ideal.hostReduceAdd h' y (init (Shape.Idx.first h_S_)) (ix3 o b u) = _
  rw [Ideal.hostReduceAdd_single h' h, eq_ix0 (Shape.Idx.first h_S_)]
  refine congrArg (_ + ·) (Finset.sum_congr rfl fun k _ => ?_)
  refine congrArg y (funext fun a => Fin.ext ?_)
  match a with
  | ⟨0, _⟩ => rfl
  | ⟨1, _⟩ => rfl
  | ⟨2, _⟩ => rfl
  | ⟨3, _⟩ => rfl

/-! ## A gather of whole planes, read at an index

What `x[idx]` of an array `x : [N, A, B]` at an integer column `idx : [R, 1]` lowers to: offset axes `[1, 2]`,
collapsed axis `[0]`, start index map `[0]`, slice sizes `[1, A, B]`, the index vector on axis 1. Result element
`(p, b, f)` is `x` at `(idx[p, 0], b, f)` with the start index read signed and clamped into `[0, N − 1]`. -/

section Plane
variable {α : Type}

/-- Those dimension numbers for an operand `[N, A, B]`, start indices `[R, 1]` and result `[R, A, B]`. -/
private abbrev planeDims (N R A B : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- On the gathered axis the operand index is the start index `idx[p, 0]`, read signed and clamped. -/
private theorem planeDims_axis0 {N R A B w : Nat}
    (wf : GatherDims.WF ⟨3, ![N, A, B]⟩ ⟨2, ![R, 1]⟩ ⟨3, ![R, A, B]⟩ [1, 2] [0] [] [0] [] 1 ![1, A, B])
    (idx : IVec ⟨2, ![R, 1]⟩ w) (p : Fin R) (b : Fin A) (f : Fin B) :
    (planeDims N R A B wf).start (ix3 p b f) idx 0 + (planeDims N R A B wf).batchCoord (ix3 p b f) 0
      + (planeDims N R A B wf).offCoord (ix3 p b f) 0 = min (idx (ix2 p 0)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (planeDims N R A B wf).startIndexMap from List.mem_singleton.mpr rfl)]
  have hsi : (planeDims N R A B wf).siIdx (ix3 p b f) ⟨List.idxOf (0 : Fin 3) (planeDims N R A B wf).startIndexMap,
      List.idxOf_lt_length_iff.2 (List.mem_singleton.mpr rfl)⟩ = ix2 p 0 := by
    funext c; refine Fin.ext ?_
    match c with
    | ⟨0, _⟩ => rfl
    | ⟨1, _⟩ => rfl
  rw [hsi]
  rfl

/-- On the first plane axis the operand index is the result's coordinate `b`. -/
private theorem planeDims_axis1 {N R A B w : Nat}
    (wf : GatherDims.WF ⟨3, ![N, A, B]⟩ ⟨2, ![R, 1]⟩ ⟨3, ![R, A, B]⟩ [1, 2] [0] [] [0] [] 1 ![1, A, B])
    (idx : IVec ⟨2, ![R, 1]⟩ w) (p : Fin R) (b : Fin A) (f : Fin B) :
    (planeDims N R A B wf).start (ix3 p b f) idx 1 + (planeDims N R A B wf).batchCoord (ix3 p b f) 1
      + (planeDims N R A B wf).offCoord (ix3 p b f) 1 = b.val := by
  rw [GatherDims.batchCoord_eq_zero _ _ _ List.not_mem_nil]
  have hs : (planeDims N R A B wf).start (ix3 p b f) idx 1 = 0 := by
    unfold GatherDims.start
    rw [dif_neg (show (1 : Fin 3) ∉ (planeDims N R A B wf).startIndexMap by
      show (1 : Fin 3) ∉ ([0] : List (Fin 3)); decide)]
  rw [hs]
  simp only [Nat.add_zero, Nat.zero_add]
  unfold GatherDims.offCoord
  have hk : (1 : Fin 3) ∈ (planeDims N R A B wf).sKept :=
    (GatherDims.mem_sKept _ _).mpr ⟨by show (1 : Fin 3) ∉ ([0] : List (Fin 3)); decide, List.not_mem_nil⟩
  rw [dif_pos hk]
  rfl

/-- On the second plane axis the operand index is the result's coordinate `f`. -/
private theorem planeDims_axis2 {N R A B w : Nat}
    (wf : GatherDims.WF ⟨3, ![N, A, B]⟩ ⟨2, ![R, 1]⟩ ⟨3, ![R, A, B]⟩ [1, 2] [0] [] [0] [] 1 ![1, A, B])
    (idx : IVec ⟨2, ![R, 1]⟩ w) (p : Fin R) (b : Fin A) (f : Fin B) :
    (planeDims N R A B wf).start (ix3 p b f) idx 2 + (planeDims N R A B wf).batchCoord (ix3 p b f) 2
      + (planeDims N R A B wf).offCoord (ix3 p b f) 2 = f.val := by
  rw [GatherDims.batchCoord_eq_zero _ _ _ List.not_mem_nil]
  have hs : (planeDims N R A B wf).start (ix3 p b f) idx 2 = 0 := by
    unfold GatherDims.start
    rw [dif_neg (show (2 : Fin 3) ∉ (planeDims N R A B wf).startIndexMap by
      show (2 : Fin 3) ∉ ([0] : List (Fin 3)); decide)]
  rw [hs]
  simp only [Nat.add_zero, Nat.zero_add]
  unfold GatherDims.offCoord
  have hk : (2 : Fin 3) ∈ (planeDims N R A B wf).sKept :=
    (GatherDims.mem_sKept _ _).mpr ⟨by show (2 : Fin 3) ∉ ([0] : List (Fin 3)); decide, List.not_mem_nil⟩
  rw [dif_pos hk]
  rfl

/-- THE PLANE GATHER READ AT `(p, b, f)`: entry `(b, f)` of the plane whose number is the start index `idx[p, 0]`, read
    signed and clamped into `[0, N − 1]`. -/
private theorem gather_plane_apply {N R A B w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (p : Fin R) (b : Fin A) (f : Fin B) :
    Host.gather (planeDims N R A B wf) x idx (ix3 p b f)
      = x (ix3 (⟨min (idx (ix2 p 0)).toInt.toNat (N - 1), by omega⟩ : Fin N) b f) := by
  unfold Host.gather
  congr 1
  funext a
  refine Fin.ext ?_
  match a with
  | ⟨0, _⟩ => exact planeDims_axis0 wf idx p b f
  | ⟨1, _⟩ => exact planeDims_axis1 wf idx p b f
  | ⟨2, _⟩ => exact planeDims_axis2 wf idx p b f

end Plane

/-- The gather of whole `[128, 128]` planes of an `[8, 128, 128]` array, read at `(p, b, f)`: entry `(b, f)` of the
    plane whose number is start index `p`, read signed and clamped into `[0, 7]`. -/
theorem gather_x {α : Type} (x : S8x128x128.Idx → α) (idx : IVec S64x1 32) (p : Fin 64) (b f : Fin 128) :
    Host.gather gather_S8x128x128_S64x1_S64x128x128_12_0_n_n_0_1_1128128 x idx (ix3 p b f)
      = x (ix3 (⟨min (idx (ix2 p 0)).toInt.toNat 7, by omega⟩ : Fin 8) b f) :=
  gather_plane_apply (N := 8) (R := 64) (A := 128) (B := 128) (by decide)
    gather_S8x128x128_S64x1_S64x128x128_12_0_n_n_0_1_1128128_wf x idx p b f

/-- The gather of whole `[128, 64]` planes of an `[8, 128, 64]` array, read at `(p, f, u)`: entry `(f, u)` of the
    plane whose number is start index `p`, read signed and clamped into `[0, 7]`. -/
theorem gather_w {α : Type} (w : S8x128x64.Idx → α) (idx : IVec S64x1 32) (p : Fin 64) (f : Fin 128) (u : Fin 64) :
    Host.gather gather_S8x128x64_S64x1_S64x128x64_12_0_n_n_0_1_112864 w idx (ix3 p f u)
      = w (ix3 (⟨min (idx (ix2 p 0)).toInt.toNat 7, by omega⟩ : Fin 8) f u) :=
  gather_plane_apply (N := 8) (R := 64) (A := 128) (B := 64) (by decide)
    gather_S8x128x64_S64x1_S64x128x64_12_0_n_n_0_1_112864_wf w idx p f u

/-! ## An accumulating scatter over the leading axis, read at an index

A segment sum of updates `[R, A, B, C]` with segment numbers `[R, 1]` into an operand `[N, A, B, C]`, as one
accumulating scatter: update window axes `[1, 2, 3]`, inserted window axis `[0]`, scatter-dims-to-operand-dims `[0]`, the index
vector on axis 1. Update `(p, b, f, u)` lands on operand entry `(idx[p, 0], b, f, u)` when the scatter index, read
signed, is in `[0, N)`, and is dropped otherwise. -/

section Segment

/-- Those dimension numbers for an operand `[N, A, B, C]`, scatter indices `[R, 1]` and updates `[R, A, B, C]`. -/
private abbrev segDims (N R A B C : Nat)
    (wf : ScatterDims.WF ⟨4, ![N, A, B, C]⟩ ⟨2, ![R, 1]⟩ ⟨4, ![R, A, B, C]⟩ [1, 2, 3] [0] [0] 1) :
    ScatterDims ⟨4, ![N, A, B, C]⟩ ⟨2, ![R, 1]⟩ ⟨4, ![R, A, B, C]⟩ where
  updateWindowDims := [1, 2, 3]
  insertedWindowDims := [0]
  scatterDimsToOperandDims := [0]
  indexVectorDim := 1
  wf := wf

variable {N R A B C w : Nat}
  (wf : ScatterDims.WF ⟨4, ![N, A, B, C]⟩ ⟨2, ![R, 1]⟩ ⟨4, ![R, A, B, C]⟩ [1, 2, 3] [0] [0] 1)
  (idx : IVec ⟨2, ![R, 1]⟩ w) (p : Fin R) (b : Fin A) (f : Fin B) (u : Fin C)

/-- On the leading axis the window starts at the scatter index `idx[p, 0]`, read signed. -/
private theorem segDims_start0 :
    (segDims N R A B C wf).start (ix4 p b f u) idx 0 = (idx (ix2 p 0)).toInt := by
  unfold ScatterDims.start
  rw [dif_pos (show (0 : Fin 4) ∈ (segDims N R A B C wf).scatterDimsToOperandDims from List.mem_singleton.mpr rfl)]
  have hsi : (segDims N R A B C wf).siIdx (ix4 p b f u)
      ⟨List.idxOf (0 : Fin 4) (segDims N R A B C wf).scatterDimsToOperandDims,
        List.idxOf_lt_length_iff.2 (List.mem_singleton.mpr rfl)⟩ = ix2 p 0 := by
    funext c; refine Fin.ext ?_
    match c with
    | ⟨0, _⟩ => rfl
    | ⟨1, _⟩ => rfl
  rw [hsi]

/-- On the three window axes the window starts at `0`. -/
private theorem segDims_start_succ (a : Fin 4) (ha : a ≠ 0) :
    (segDims N R A B C wf).start (ix4 p b f u) idx a = 0 := by
  unfold ScatterDims.start
  rw [dif_neg (show a ∉ (segDims N R A B C wf).scatterDimsToOperandDims from fun h => ha (List.mem_singleton.mp h))]

/-- The leading axis is inserted: no window coordinate there. -/
private theorem segDims_window0 : (segDims N R A B C wf).window (ix4 p b f u) 0 = 0 := by
  unfold ScatterDims.window
  rw [dif_neg (show (0 : Fin 4) ∉ (segDims N R A B C wf).sKept by
    show (0 : Fin 4) ∉ (Shape.kept ⟨4, ![N, A, B, C]⟩ [0]); simp [Shape.kept])]

private theorem segDims_mem_sKept (a : Fin 4) (ha : a ≠ 0) : a ∈ (segDims N R A B C wf).sKept := by
  show a ∈ (Shape.kept ⟨4, ![N, A, B, C]⟩ [0]); simp [Shape.kept, ha]

/-- On the window axes the window coordinate is the update's own. -/
private theorem segDims_window1 : (segDims N R A B C wf).window (ix4 p b f u) 1 = b.val := by
  unfold ScatterDims.window
  rw [dif_pos (segDims_mem_sKept wf 1 (by decide))]
  rfl
private theorem segDims_window2 : (segDims N R A B C wf).window (ix4 p b f u) 2 = f.val := by
  unfold ScatterDims.window
  rw [dif_pos (segDims_mem_sKept wf 2 (by decide))]
  rfl
private theorem segDims_window3 : (segDims N R A B C wf).window (ix4 p b f u) 3 = u.val := by
  unfold ScatterDims.window
  rw [dif_pos (segDims_mem_sKept wf 3 (by decide))]
  rfl

/-- Start plus window coordinate, axis by axis: the scatter index on the leading axis, the update's own coordinates
    on the other three. -/
private theorem segDims_pos0 :
    (segDims N R A B C wf).start (ix4 p b f u) idx 0 + ((segDims N R A B C wf).window (ix4 p b f u) 0 : Nat)
      = (idx (ix2 p 0)).toInt := by
  rw [segDims_start0, segDims_window0]; simp
private theorem segDims_pos1 :
    (segDims N R A B C wf).start (ix4 p b f u) idx 1 + ((segDims N R A B C wf).window (ix4 p b f u) 1 : Nat)
      = (b.val : Int) := by
  rw [segDims_start_succ wf idx p b f u 1 (by decide), segDims_window1]; simp
private theorem segDims_pos2 :
    (segDims N R A B C wf).start (ix4 p b f u) idx 2 + ((segDims N R A B C wf).window (ix4 p b f u) 2 : Nat)
      = (f.val : Int) := by
  rw [segDims_start_succ wf idx p b f u 2 (by decide), segDims_window2]; simp
private theorem segDims_pos3 :
    (segDims N R A B C wf).start (ix4 p b f u) idx 3 + ((segDims N R A B C wf).window (ix4 p b f u) 3 : Nat)
      = (u.val : Int) := by
  rw [segDims_start_succ wf idx p b f u 3 (by decide), segDims_window3]; simp

/-- WHERE AN UPDATE LANDS: update `(p, b, f, u)` lands on operand entry `(o, b', f', u')` exactly when its scatter
    index, read signed, is `o` and the window coordinates agree. -/
private theorem segDims_resultIdx_eq_some_iff (o : Fin N) (b' : Fin A) (f' : Fin B) (u' : Fin C) :
    (segDims N R A B C wf).resultIdx? (ix4 p b f u) idx = some (ix4 o b' f' u')
      ↔ ((idx (ix2 p 0)).toInt = (o.val : Int) ∧ b = b' ∧ f = f' ∧ u = u') := by
  have h0 := segDims_pos0 wf idx p b f u
  have h1 := segDims_pos1 wf idx p b f u
  have h2 := segDims_pos2 wf idx p b f u
  have h3 := segDims_pos3 wf idx p b f u
  unfold ScatterDims.resultIdx?
  split
  · next h =>
    rw [Option.some.injEq]
    constructor
    · intro e
      have e0 : ((segDims N R A B C wf).start (ix4 p b f u) idx 0
          + ((segDims N R A B C wf).window (ix4 p b f u) 0 : Nat)).toNat = o.val := congrArg (fun i => (i 0).val) e
      have e1 : ((segDims N R A B C wf).start (ix4 p b f u) idx 1
          + ((segDims N R A B C wf).window (ix4 p b f u) 1 : Nat)).toNat = b'.val := congrArg (fun i => (i 1).val) e
      have e2 : ((segDims N R A B C wf).start (ix4 p b f u) idx 2
          + ((segDims N R A B C wf).window (ix4 p b f u) 2 : Nat)).toNat = f'.val := congrArg (fun i => (i 2).val) e
      have e3 : ((segDims N R A B C wf).start (ix4 p b f u) idx 3
          + ((segDims N R A B C wf).window (ix4 p b f u) 3 : Nat)).toNat = u'.val := congrArg (fun i => (i 3).val) e
      have hn := (h 0).1
      rw [h0] at e0 hn
      rw [h1] at e1
      rw [h2] at e2
      rw [h3] at e3
      refine ⟨by omega, Fin.ext (by omega), Fin.ext (by omega), Fin.ext (by omega)⟩
    · rintro ⟨ht, rfl, rfl, rfl⟩
      funext a
      refine Fin.ext ?_
      match a with
      | ⟨0, _⟩ =>
        show ((segDims N R A B C wf).start (ix4 p b f u) idx 0
          + ((segDims N R A B C wf).window (ix4 p b f u) 0 : Nat)).toNat = o.val
        rw [h0, ht]; simp
      | ⟨1, _⟩ =>
        show ((segDims N R A B C wf).start (ix4 p b f u) idx 1
          + ((segDims N R A B C wf).window (ix4 p b f u) 1 : Nat)).toNat = b.val
        rw [h1]; simp
      | ⟨2, _⟩ =>
        show ((segDims N R A B C wf).start (ix4 p b f u) idx 2
          + ((segDims N R A B C wf).window (ix4 p b f u) 2 : Nat)).toNat = f.val
        rw [h2]; simp
      | ⟨3, _⟩ =>
        show ((segDims N R A B C wf).start (ix4 p b f u) idx 3
          + ((segDims N R A B C wf).window (ix4 p b f u) 3 : Nat)).toNat = u.val
        rw [h3]; simp
  · next h =>
    constructor
    · intro e; exact absurd e (by simp)
    · rintro ⟨ht, rfl, rfl, rfl⟩
      refine absurd (fun a => ?_) h
      match a with
      | ⟨0, _⟩ =>
        show 0 ≤ (segDims N R A B C wf).start (ix4 p b f u) idx 0
              + ((segDims N R A B C wf).window (ix4 p b f u) 0 : Nat)
          ∧ (segDims N R A B C wf).start (ix4 p b f u) idx 0
              + ((segDims N R A B C wf).window (ix4 p b f u) 0 : Nat) < (N : Int)
        rw [h0, ht]; have := o.isLt; omega
      | ⟨1, _⟩ =>
        show 0 ≤ (segDims N R A B C wf).start (ix4 p b f u) idx 1
              + ((segDims N R A B C wf).window (ix4 p b f u) 1 : Nat)
          ∧ (segDims N R A B C wf).start (ix4 p b f u) idx 1
              + ((segDims N R A B C wf).window (ix4 p b f u) 1 : Nat) < (A : Int)
        rw [h1]; have := b.isLt; omega
      | ⟨2, _⟩ =>
        show 0 ≤ (segDims N R A B C wf).start (ix4 p b f u) idx 2
              + ((segDims N R A B C wf).window (ix4 p b f u) 2 : Nat)
          ∧ (segDims N R A B C wf).start (ix4 p b f u) idx 2
              + ((segDims N R A B C wf).window (ix4 p b f u) 2 : Nat) < (B : Int)
        rw [h2]; have := f.isLt; omega
      | ⟨3, _⟩ =>
        show 0 ≤ (segDims N R A B C wf).start (ix4 p b f u) idx 3
              + ((segDims N R A B C wf).window (ix4 p b f u) 3 : Nat)
          ∧ (segDims N R A B C wf).start (ix4 p b f u) idx 3
              + ((segDims N R A B C wf).window (ix4 p b f u) 3 : Nat) < (C : Int)
        rw [h3]; have := u.isLt; omega

/-- THE ACCUMULATING SCATTER READ AT `(o, b, f, u)`: the operand's entry plus the updates `(p, b, f, u)` over the rows
    `p` whose scatter index, read signed, is `o`. -/
private theorem scatterAdd_seg_apply (z : (⟨4, ![N, A, B, C]⟩ : Shape).Idx → EReal)
    (upd : (⟨4, ![R, A, B, C]⟩ : Shape).Idx → EReal) (o : Fin N) :
    Ideal.hostScatterAdd (segDims N R A B C wf) z idx upd (ix4 o b f u)
      = z (ix4 o b f u) + ∑ p : Fin R, if (idx (ix2 p 0)).toInt = (o.val : Int) then upd (ix4 p b f u) else 0 := by
  unfold Ideal.hostScatterAdd
  refine congrArg (_ + ·) ?_
  rw [← Finset.sum_filter]
  symm
  refine Finset.sum_bij (fun p _ => ix4 p b f u) ?_ ?_ ?_ ?_
  · intro p hp
    rw [Finset.mem_filter] at hp ⊢
    exact ⟨Finset.mem_univ _, (segDims_resultIdx_eq_some_iff wf idx p b f u o b f u).2 ⟨hp.2, rfl, rfl, rfl⟩⟩
  · intro p _ p' _ e
    have e0 : p.val = p'.val := congrArg (fun i => (i 0).val) e
    exact Fin.ext e0
  · intro j hj
    obtain ⟨p, b', f', u', rfl⟩ : ∃ (p : Fin R) (b' : Fin A) (f' : Fin B) (u' : Fin C), j = ix4 p b' f' u' :=
      ⟨j 0, j 1, j 2, j 3, eq_ix4 j⟩
    rw [Finset.mem_filter] at hj
    obtain ⟨ht, rfl, rfl, rfl⟩ := (segDims_resultIdx_eq_some_iff wf idx p b' f' u' o b f u).1 hj.2
    exact ⟨p, Finset.mem_filter.2 ⟨Finset.mem_univ _, ht⟩, rfl⟩
  · intro p _
    rfl

end Segment

/-- The segment sum into an `[8, 128, 128, 64]` array, read at `(o, b, f, u)`: the operand's entry plus the updates
    `(p, b, f, u)` over the rows `p` of the 64 whose scatter index, read signed, is `o`; a row whose index is outside
    `[0, 8)` lands nowhere. -/
theorem scatterAdd_apply (z : FVec Ideal S8x128x128x64 .f32) (idx : IVec S64x1 32) (upd : FVec Ideal S64x128x128x64 .f32)
    (o : Fin 8) (b f : Fin 128) (u : Fin 64) :
    Host.scatterAdd (F := Ideal) scatter_S8x128x128x64_S64x1_S64x128x128x64_123_0_0_1 z idx upd (ix4 o b f u)
      = z (ix4 o b f u) + ∑ p : Fin 64, if (idx (ix2 p 0)).toInt = (o.val : Int) then upd (ix4 p b f u) else 0 :=
  scatterAdd_seg_apply (N := 8) (R := 64) (A := 128) (B := 128) (C := 64)
    scatter_S8x128x128x64_S64x1_S64x128x128x64_123_0_0_1_wf idx b f u z upd o

end Cert.ReferenceIdeal.RefRead

end
-- ==== Proof.RefValue.lean ====
/-
  The reference program's result IS the specification: read at an index, the reduction, the segment sum, the
  products, the broadcasts and the two gathers of the reference's term give, entry by entry, the signed
  products of the pairs landing on an output blade, summed over the pairs and over the feature. The four constant
  tables of the program are the blade tables: the segment numbers are the output blades, the block numbers the
  left and right blades, the sign words the floats 1 and −1.
-/
import proofs.«177274_j60069412602337_2_alg».proof.Proof.RefRun
import proofs.«177274_j60069412602337_2_alg».proof.Proof.RefRead
import proofs.«177274_j60069412602337_2_alg».proof.Proof.Blades
import Idealize.ShloMosaic.Lib.Pipeline.Value
import Idealize.ShloMosaic.Lib.IdealHost
import Idealize.ShloMosaic.Lib.ValueIdx

noncomputable section

open scoped BigOperators

namespace Cert.ReferenceIdeal.RefValue

open Idealize.ShloMosaic Idealize.ShloMosaic.ValueIdx Cert.ReferenceIdeal Cert.ReferenceIdeal.RefRun Cert.Blades

/-! ## The four tables -/

/-- The segment numbers, read signed, are the output blades. -/
private theorem lit3_seg : ∀ p : Fin 64, (lit3 p).toInt = ((seg p).val : Int) := by decide

/-- The left block numbers, read signed and clamped into `[0, 7]`, are the left blades. -/
private theorem lit1_left : ∀ p : Fin 64, min (lit1 p).toInt.toNat 7 = (left p).val := by decide

/-- The right block numbers, read signed and clamped into `[0, 7]`, are the right blades. -/
private theorem lit2_right : ∀ p : Fin 64, min (lit2 p).toInt.toNat 7 = (right p).val := by decide

/-- The sign words are the patterns of `-1` where the pair carries a minus sign and of `1` elsewhere. -/
private theorem lit0_isNeg : ∀ p : Fin 64, lit0 p = if isNeg p then 0xBF800000#32 else 0x3F800000#32 := by decide

/-- The f32 pattern `0xBF800000` is the extended real minus one. -/
private theorem ofBits_neg_one_f32 : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- The position of a rank-1 index in row-major order is its coordinate. -/
private theorem rowMajor_ix1 (p : Fin 64) : S64.rowMajor (ix1 p) = p :=
  Fin.ext (by rw [Shape.rowMajor_val_one])

/-! ## The index arrays and the signs, read at a pair -/

/-- A table written as a column reads the table's entry. -/
private theorem colOf_apply (tab : IVec S64 32) (p : Fin 64) : colOf tab (ix2 p 0) = tab (ix1 p) := by
  unfold colOf
  refine broadcastInDim_apply _ _ tab (ix2 p 0) (ix1 p) fun a => ?_
  match a with
  | ⟨0, _⟩ => rfl

/-- The start indices of a gather are the table's own entries: the mask that would move an entry is false everywhere. -/
private theorem startsOf_apply (tab : IVec S64 32) (p : Fin 64) : startsOf tab (ix2 p 0) = tab (ix1 p) := by
  unfold startsOf
  rw [broadcastInDim_apply _ _ _ (ix2 p 0) (ix1 p) (fun a => by match a with | ⟨0, _⟩ => rfl)]
  rw [select_apply]
  exact select_zero _ _

/-- The sign array at pair `p` is the pair's sign. -/
private theorem sgnArr_apply (p : Fin 64) : sgnArr (F := Ideal) (ix1 p) = sgn p := by
  show Ideal.ofBits .f32 (lit0 (S64.rowMajor (ix1 p))) = sgn p
  rw [rowMajor_ix1, lit0_isNeg]
  unfold sgn
  cases isNeg p
  · simp only [Bool.false_eq_true, if_false]; exact Ideal.ofBits_one_f32
  · simp only [if_true]; exact ofBits_neg_one_f32

/-! ## The signed products, read at an index -/

/-- The left factor at `(p, r, f)`: the sign of pair `p` times `x` at the pair's left blade. -/
private theorem leftFactor_apply (x : FVec Ideal S8x128x128 .f32) (p : Fin 64) (r f : Fin 128) :
    mulf
        (broadcastInDim S64x128x128x1 ![0, 1, 2, 3] Gen.bcast_S64x1x1x1_S64x128x128x1_0_1_2_3
          (broadcastInDim S64x1x1x1 ![0] Gen.bcast_S64_S64x1x1x1_0 (sgnArr (F := Ideal))))
        (broadcastInDim S64x128x128x1 ![0, 1, 2] Gen.bcast_S64x128x128_S64x128x128x1_0_1_2
          (Host.gather gather_S8x128x128_S64x1_S64x128x128_12_0_n_n_0_1_1128128 x (startsOf tabA)))
        (ix4 p r f 0)
      = sgn p * x (ix3 (left p) r f) := by
  rw [mulf_apply]
  rw [broadcastInDim_apply _ _ _ (ix4 p r f 0) (ix4 p 0 0 0) (fun a => by
    match a with
    | ⟨0, _⟩ => rfl
    | ⟨1, _⟩ => rfl
    | ⟨2, _⟩ => rfl
    | ⟨3, _⟩ => rfl)]
  rw [broadcastInDim_apply _ _ _ (ix4 p 0 0 0) (ix1 p) (fun a => by match a with | ⟨0, _⟩ => rfl)]
  rw [broadcastInDim_apply _ _ _ (ix4 p r f 0) (ix3 p r f) (fun a => by
    match a with
    | ⟨0, _⟩ => rfl
    | ⟨1, _⟩ => rfl
    | ⟨2, _⟩ => rfl)]
  rw [sgnArr_apply, RefRead.gather_x]
  have hl : (⟨min (startsOf tabA (ix2 p 0)).toInt.toNat 7, by omega⟩ : Fin 8) = left p :=
    Fin.ext (by
      show min (startsOf tabA (ix2 p 0)).toInt.toNat 7 = (left p).val
      rw [startsOf_apply]
      show min (lit1 (S64.rowMajor (ix1 p))).toInt.toNat 7 = _
      rw [rowMajor_ix1]; exact lit1_left p)
  rw [hl]

/-- The right factor at `(p, f, u)`: `w` at the pair's right blade. -/
private theorem rightFactor_apply (w : FVec Ideal S8x128x64 .f32) (p : Fin 64) (r f : Fin 128) (u : Fin 64) :
    broadcastInDim S64x128x128x64 ![0, 1, 2, 3] Gen.bcast_S64x1x128x64_S64x128x128x64_0_1_2_3
        (broadcastInDim S64x1x128x64 ![0, 2, 3] Gen.bcast_S64x128x64_S64x1x128x64_0_2_3
          (Host.gather gather_S8x128x64_S64x1_S64x128x64_12_0_n_n_0_1_112864 w (startsOf tabB)))
        (ix4 p r f u)
      = w (ix3 (right p) f u) := by
  rw [broadcastInDim_apply _ _ _ (ix4 p r f u) (ix4 p 0 f u) (fun a => by
    match a with
    | ⟨0, _⟩ => rfl
    | ⟨1, _⟩ => rfl
    | ⟨2, _⟩ => rfl
    | ⟨3, _⟩ => rfl)]
  rw [broadcastInDim_apply _ _ _ (ix4 p 0 f u) (ix3 p f u) (fun a => by
    match a with
    | ⟨0, _⟩ => rfl
    | ⟨1, _⟩ => rfl
    | ⟨2, _⟩ => rfl)]
  rw [RefRead.gather_w]
  have hr : (⟨min (startsOf tabB (ix2 p 0)).toInt.toNat 7, by omega⟩ : Fin 8) = right p :=
    Fin.ext (by
      show min (startsOf tabB (ix2 p 0)).toInt.toNat 7 = (right p).val
      rw [startsOf_apply]
      show min (lit2 (S64.rowMajor (ix1 p))).toInt.toNat 7 = _
      rw [rowMajor_ix1]; exact lit2_right p)
  rw [hr]

/-- THE SIGNED PRODUCT at `(p, r, f, u)`: `(sgn p · x[left p, r, f]) · w[right p, f, u]`. -/
private theorem pairProd_apply (x : FVec Ideal S8x128x128 .f32) (w : FVec Ideal S8x128x64 .f32)
    (p : Fin 64) (r f : Fin 128) (u : Fin 64) :
    pairProd (F := Ideal) x w (ix4 p r f u) = (sgn p * x (ix3 (left p) r f)) * w (ix3 (right p) f u) := by
  unfold pairProd
  rw [mulf_apply]
  rw [broadcastInDim_apply _ _ _ (ix4 p r f u) (ix4 p r f 0) (fun a => by
    match a with
    | ⟨0, _⟩ => rfl
    | ⟨1, _⟩ => rfl
    | ⟨2, _⟩ => rfl
    | ⟨3, _⟩ => rfl)]
  rw [leftFactor_apply, rightFactor_apply]

/-! ## The result -/

/-- The reference program's result is the layer's output: at `(o, r, u)` the signed products of every pair landing on
    blade `o`, summed over the pairs and over the feature. -/
theorem refTerm_eq (x : FVec Ideal S8x128x128 .f32) (w : FVec Ideal S8x128x64 .f32) :
    Cert.ReferenceIdeal.RefRun.refTerm (F := Ideal) x w = Cert.Blades.out x w := by
  funext j
  obtain ⟨o, r, u, rfl⟩ : ∃ (o : Fin 8) (r : Fin 128) (u : Fin 64), j = ix3 o r u := ⟨j 0, j 1, j 2, eq_ix3 j⟩
  rw [out_apply]
  unfold outAt refTerm
  rw [RefRead.reduceAdd_apply, constant_apply, Ideal.ofBits_zero_f32, zero_add]
  refine Finset.sum_congr rfl fun f _ => ?_
  rw [RefRead.scatterAdd_apply, broadcastInDim_scalar_apply, constant_apply, Ideal.ofBits_zero_f32, zero_add]
  refine Finset.sum_congr rfl fun p _ => ?_
  rw [colOf_apply, pairProd_apply]
  have hseg : (tabO (ix1 p)).toInt = ((seg p).val : Int) := by
    show (lit3 (S64.rowMajor (ix1 p))).toInt = _
    rw [rowMajor_ix1]; exact lit3_seg p
  rw [hseg]
  by_cases h : seg p = o
  · rw [if_pos h, if_pos (by rw [h])]
  · rw [if_neg h, if_neg (fun e => h (Fin.ext (by exact_mod_cast e)))]

end Cert.ReferenceIdeal.RefValue

end
-- ==== Proof.lean ====
/-
  The certificate of the multivector dense layer: a kernel that computes the geometric-product layer of three-dimensional
  multivectors as one matrix product per batch tile, against the reference that gathers the 64 blade pairs, multiplies,
  sums each output blade's pairs and sums over the features.

  Both programs, read on the extended reals, end with

      out[o, batch, unit] = Σ_f Σ_{p : blade(p) = o} (sign p · x[left p, batch, f]) · w[right p, f, unit]

  (`Cert.Blades.out`). The kernel side: `KernelValue.run` — the body's block matrix product read entry by entry, the two
  tiles covering the region's array, the reshape and transpose after the region — joined to that sum by
  `Blades.blockSum_eq`, which regroups the 64 pairs by left blade and moves each sign onto the weight. The reference side:
  `RefRun.run` reads the program's 32 operations back as one term, and `RefValue.refTerm_eq` reads that term at an index.
  No step needs the inputs finite, so the precondition is not opened. The kernel's idealization rewrote nothing, so
  `preserves` asks nothing; the three frames are the generated frame runs (the reference's being its run with the result
  dropped).
-/
import proofs.«177274_j60069412602337_2_alg».proof.Defs
import proofs.«177274_j60069412602337_2_alg».proof.Proof.Gen.Kernel
import proofs.«177274_j60069412602337_2_alg».proof.Proof.Gen.Kernel.Frame
import proofs.«177274_j60069412602337_2_alg».proof.Proof.Gen.KernelIdeal
import proofs.«177274_j60069412602337_2_alg».proof.Proof.Gen.KernelIdeal.Frame
import proofs.«177274_j60069412602337_2_alg».proof.Proof.Gen.ReferenceIdeal
import proofs.«177274_j60069412602337_2_alg».proof.Proof.Gen.Pre_finite_inputs
import proofs.«177274_j60069412602337_2_alg».proof.Proof.KernelValue
import proofs.«177274_j60069412602337_2_alg».proof.Proof.RefRun
import proofs.«177274_j60069412602337_2_alg».proof.Proof.RefValue

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- On the extended reals both programs end at the layer's output of the (agreeing) argument arrays. -/
theorem algebraic : Cert.algebraic_KernelIdeal_ReferenceIdeal := by
  intro m ρ m' ρ' _ hagree
  refine ⟨fun c => Cert.Blades.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
